-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S256x256 : Shape := ⟨2, ![256, 256]⟩
abbrev S256 : Shape := ⟨1, ![256]⟩
abbrev S1024x256 : Shape := ⟨2, ![1024, 256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  main_v18

def fn {F : FTy → Type} [FloatOps F] (main_arg0 : FVec F S16x1024x256 .f32) (main_arg1 : FVec F S256x256 .f32) (main_arg2 : FVec F S256 .f32) (main_arg3 : FVec F S1024x256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_v13 main_v16
-- ==== Kernel.lean ====
abbrev S16x1024x256 : Shape := ⟨3, ![16, 1024, 256]⟩
abbrev S256x256 : Shape := ⟨2, ![256, 256]⟩
abbrev S256 : Shape := ⟨1, ![256]⟩
abbrev S1024x256 : Shape := ⟨2, ![1024, 256]⟩
abbrev S16384x256 : Shape := ⟨2, ![16384, 256]⟩
abbrev S_ : Shape := ⟨0, ![]⟩
abbrev S1x256 : Shape := ⟨2, ![1, 256]⟩
abbrev S16384x1024 : Shape := ⟨2, ![16384, 1024]⟩
abbrev S16x1024x1024 : Shape := ⟨3, ![16, 1024, 1024]⟩
abbrev S2048x256 : Shape := ⟨2, ![2048, 256]⟩
abbrev S2048x1024 : Shape := ⟨2, ![2048, 1024]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩

abbrev nBuf : Space → Nat
  | .hbm => 14
  | .vmem => 8
  | .smem => 0
  | _ => 0

abbrev bufTy : (tb : Table) → Fin (tcTables nBuf tb) → BufTy
  | .hbm, ⟨0, _⟩ => ⟨S16x1024x256, .f32⟩
  | .hbm, ⟨1, _⟩ => ⟨S256x256, .f32⟩
  | .hbm, ⟨2, _⟩ => ⟨S256, .f32⟩
  | .hbm, ⟨3, _⟩ => ⟨S1024x256, .f32⟩
  | .hbm, ⟨4, _⟩ => ⟨S16384x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S1x256, .f32⟩
  | .hbm, ⟨12, _⟩ => ⟨S16384x1024, .f32⟩
  | .hbm, ⟨13, _⟩ => ⟨S16x1024x1024, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S1024x256, .f32⟩
  | .local _ .vmem, ⟨5, _⟩ => ⟨S2048x1024, .f32⟩
  | .local _ .vmem, ⟨6, _⟩ => ⟨S2048x1024, .f32⟩
  | .local _ .vmem, ⟨7, _⟩ => ⟨S1x1024, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_cst_0 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1024x256_S16384x256 : S16x1024x256.ShapeCasts S16384x256
  bcast_S_S256x256 : S_.BroadcastsInDim S256x256 (![] : Fin 0 → Fin S256x256.rank)
  bcast_S_S256 : S_.BroadcastsInDim S256 (![] : Fin 0 → Fin S256.rank)
  shapeCasts_S256_S1x256 : S256.ShapeCasts S1x256
  shapeCasts_S16384x1024_S16x1024x1024 : S16384x1024.ShapeCasts S16x1024x1024
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  inb_S2048x1024_S2048x1024_0_0 : ∀ a, (![0, 0] : Fin 2 → Nat) a + S2048x1024.size a ≤ S2048x1024.size a
  h_S2048x1024 : 0 < S2048x1024.numel
  dot_S2048x256_S256x256_S2048x256_1_0_0_1_n_n_wf : DotDims.WF S2048x256 S256x256 S2048x256 [1] [0] [0] [1] [] []
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x1024.size a
  hwx0_4 : ∀ i : grid0.Coords, EltTy.bits .f32 = 32 ∨ (Rect.block (s := S16384x1024) S2048x1024.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_call0_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S256x256 : Shape := ⟨2, ![256, 256]⟩
abbrev S256 : Shape := ⟨1, ![256]⟩
abbrev S1024x256 : Shape := ⟨2, ![1024, 256]⟩
abbrev S1x1x256 : Shape := ⟨3, ![1, 1, 256]⟩
abbrev S_ : Shape := ⟨0, ![]⟩
abbrev S16x1024 : Shape := ⟨2, ![16, 1024]⟩
abbrev S16x1024x1 : Shape := ⟨3, ![16, 1024, 1]⟩
abbrev S1024 : Shape := ⟨1, ![1024]⟩
abbrev S16x1024x1024 : Shape := ⟨3, ![16, 1024, 1024]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S256x256, .f32⟩
  | .hbm, ⟨2, _⟩ => ⟨S256, .f32⟩
  | .hbm, ⟨3, _⟩ => ⟨S1024x256, .f32⟩
  | .hbm, ⟨4, _⟩ => ⟨S16x1024x256, .f32⟩
  | .hbm, ⟨5, _⟩ => ⟨S1x1x256, .f32⟩
  | .hbm, ⟨6, _⟩ => ⟨S16x1024x256, .f32⟩
  | .hbm, ⟨7, _⟩ => ⟨S16x1024x256, .f32⟩
  | .hbm, ⟨8, _⟩ => ⟨S16x1024x256, .f32⟩
  | .hbm, ⟨9, _⟩ => ⟨S_, .f32⟩
  | .hbm, ⟨10, _⟩ => ⟨S16x1024, .f32⟩
  | .hbm, ⟨11, _⟩ => ⟨S16x1024x1, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S16x1024x1024, .f32⟩
  | .hbm, ⟨21, _⟩ => ⟨S1x1x1024, .f32⟩
  | .hbm, ⟨22, _⟩ => ⟨S16x1024x1024, .f32⟩
  | .hbm, ⟨23, _⟩ => ⟨S16x1024x1024, .f32⟩
  | .hbm, ⟨24, _⟩ => ⟨S16x1024x1024, .f32⟩
  | .hbm, ⟨25, _⟩ => ⟨S_, .f32⟩
  | .hbm, ⟨26, _⟩ => ⟨S16x1024, .f32⟩
  | .hbm, ⟨27, _⟩ => ⟨S_, .f32⟩
  | .hbm, ⟨28, _⟩ => ⟨S16x1024, .f32⟩
  | .hbm, ⟨29, _⟩ => ⟨S16x1024, .f32⟩
  | .hbm, ⟨30, _⟩ => ⟨S16x1024x1, .f32⟩
  | .hbm, ⟨31, _⟩ => ⟨S16x1024x1024, .f32⟩
  | .hbm, ⟨32, _⟩ => ⟨S16x1024x1024, .f32⟩
  | .hbm, ⟨33, _⟩ => ⟨S16x1024x1024, .f32⟩
  | .hbm, ⟨34, _⟩ => ⟨S_, .f32⟩
  | .hbm, ⟨35, _⟩ => ⟨S16x1024, .f32⟩
  | .hbm, ⟨36, _⟩ => ⟨S16x1024x1, .f32⟩
  | .hbm, ⟨37, _⟩ => ⟨S16x1024x1024, .f32⟩
  | .hbm, ⟨38, _⟩ => ⟨S16x1024x1024, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  reducesTo_S16x1024x256_S16x1024_d2 : S16x1024x256.ReducesTo [2] S16x1024
  h_S_ : 0 < S_.numel
  bcast_S16x1024_S16x1024x1_0_1 : S16x1024.BroadcastsInDim S16x1024x1 (![0, 1] : Fin 2 → Fin S16x1024x1.rank)
  reducesTo_S1024x256_S1024_d1 : S1024x256.ReducesTo [1] S1024
  bcast_S_S16x1024x1024 : S_.BroadcastsInDim S16x1024x1024 (![] : Fin 0 → Fin S16x1024x1024.rank)
  bcast_S16x1024x1_S16x1024x1024_0_1_2 : S16x1024x1.BroadcastsInDim S16x1024x1024 (![0, 1, 2] : Fin 3 → Fin S16x1024x1024.rank)
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  reducesTo_S16x1024x1024_S16x1024_d2 : S16x1024x1024.ReducesTo [2] S16x1024
  bcast_S_S16x1024 : S_.BroadcastsInDim S16x1024 (![] : Fin 0 → Fin S16x1024.rank)
  dot_S16x1024x256_S256x256_S16x1024x256_2_0_01_1_n_n_wf : DotDims.WF S16x1024x256 S256x256 S16x1024x256 [2] [0] [0, 1] [1] [] []
  dot_S16x1024x256_S1024x256_S16x1024x1024_2_1_01_0_n_n_wf : DotDims.WF S16x1024x256 S1024x256 S16x1024x1024 [2] [1] [0, 1] [0] [] []

variable [Facts₀]

def dot_S16x1024x256_S256x256_S16x1024x256_2_0_01_1_n_n : DotDims S16x1024x256 S256x256 S16x1024x256 where
  lhsContracting := [2]
  rhsContracting := [0]
  lhsNonContracting := [0, 1]
  rhsNonContracting := [1]
  lhsBatch := []
  rhsBatch := []
  wf := dot_S16x1024x256_S256x256_S16x1024x256_2_0_01_1_n_n_wf
def dot_S16x1024x256_S1024x256_S16x1024x1024_2_1_01_0_n_n : DotDims S16x1024x256 S1024x256 S16x1024x1024 where
  lhsContracting := [2]
  rhsContracting := [1]
  lhsNonContracting := [0, 1]
  rhsNonContracting := [0]
  lhsBatch := []
  rhsBatch := []
  wf := dot_S16x1024x256_S1024x256_S16x1024x1024_2_1_01_0_n_n_wf

class Facts : Prop extends Facts₀ where

variable [Facts]
-- ==== Proof.Spec.lean ====
/-
  The mathematics of the two programs, over the extended reals, for one token and for the whole arrays.

  A token's feature vector is `f = x·W + β` (256 numbers). Against a codebook of 1024 rows `C n` the squared distance
  from `f` to row `n` is `‖f‖² − 2·⟨f, C n⟩ + ‖C n‖²`, and the result is the softmax, over `n`, of the negated
  distances. One program computes exactly that: it subtracts the largest negated distance, exponentiates, and divides by
  the sum (`refEntry`). The other never forms `‖f‖²`, which is the same for every `n` and so cancels in a softmax: with
  `p n = ‖C n‖² − ⟨2f, C n⟩` and `m` the least `p`, it returns `exp ((m − log Σⱼ exp (m − p j)) − p n)` (`kerEntry`);
  the doubled features come from doubling `W` and `β` before the product.
-/
import Idealize.ShloMosaic.PureOps.Ideal
import Idealize.ShloMosaic.Lib.ValueIdx

noncomputable section

open scoped BigOperators

namespace Cert.Spec

open Idealize.ShloMosaic Idealize.ShloMosaic.ValueIdx

/-! ## One token -/

/-- The softmax of the negated squared distances, entry `n`, as the first program forms it: from `‖f‖²` (`xsq`), the
    inner products `⟨f, C j⟩` (`cross`) and the squared norms `‖C j‖²` (`csq`). -/
def refEntry {ι : Type} [Fintype ι] (xsq : EReal) (cross csq : ι → EReal) (n : ι) : EReal :=
  Ideal.div
    (Ideal.exp (-(xsq - 2 * cross n + csq n) - max ⊥ (Finset.univ.fold max ⊥ fun j => -(xsq - 2 * cross j + csq j))))
    (∑ j, Ideal.exp (-(xsq - 2 * cross j + csq j) - max ⊥ (Finset.univ.fold max ⊥ fun j => -(xsq - 2 * cross j + csq j))))

/-- The same entry as the second program forms it: from the doubled inner products `⟨2f, C j⟩` (`cross2`) and the squared
    norms, never touching `‖f‖²`. -/
def kerEntry {ι : Type} [Fintype ι] (cross2 csq : ι → EReal) (n : ι) : EReal :=
  Ideal.exp ((Finset.univ.fold min ⊤ (fun j => csq j - cross2 j)
      - Ideal.log (∑ j, Ideal.exp (Finset.univ.fold min ⊤ (fun j => csq j - cross2 j) - (csq j - cross2 j))))
    - (csq n - cross2 n))

/-! ## The whole arrays -/

abbrev SX : Shape := ⟨3, ![16, 1024, 256]⟩
abbrev SW : Shape := ⟨2, ![256, 256]⟩
abbrev SB : Shape := ⟨1, ![256]⟩
abbrev SC : Shape := ⟨2, ![1024, 256]⟩
abbrev SO : Shape := ⟨3, ![16, 1024, 1024]⟩

variable (X : SX.Idx → EReal) (W : SW.Idx → EReal) (B : SB.Idx → EReal) (C : SC.Idx → EReal)

/-- Feature `k` of token `(b, s)`: `Σ_d X (b, s, d) · W (d, k) + B k`. -/
def feat (b : Fin 16) (s : Fin 1024) (k : Fin 256) : EReal :=
  (∑ d : Fin 256, X (ix3 b s d) * W (ix2 d k)) + B (ix1 k)

/-- The same feature from the doubled weights and bias: `Σ_d X (b, s, d) · (2 · W (d, k)) + 2 · B k`. -/
def feat2 (b : Fin 16) (s : Fin 1024) (k : Fin 256) : EReal :=
  (∑ d : Fin 256, X (ix3 b s d) * (2 * W (ix2 d k))) + 2 * B (ix1 k)

/-- `⟨f, C n⟩`. -/
def cross (b : Fin 16) (s : Fin 1024) (n : Fin 1024) : EReal := ∑ k : Fin 256, feat X W B b s k * C (ix2 n k)

/-- `⟨2f, C n⟩`. -/
def cross2 (b : Fin 16) (s : Fin 1024) (n : Fin 1024) : EReal := ∑ k : Fin 256, feat2 X W B b s k * C (ix2 n k)

/-- `‖f‖²`. -/
def xsq (b : Fin 16) (s : Fin 1024) : EReal := ∑ k : Fin 256, feat X W B b s k * feat X W B b s k

/-- `‖C n‖²`. -/
def csq (n : Fin 1024) : EReal := ∑ k : Fin 256, C (ix2 n k) * C (ix2 n k)

/-- The result array as the first program forms it. -/
def refOut : SO.Idx → EReal := fun i =>
  refEntry (xsq X W B (i 0) (i 1)) (cross X W B C (i 0) (i 1)) (csq C) (i 2)

/-- The result array as the second program forms it. -/
def kerOut : SO.Idx → EReal := fun i =>
  kerEntry (cross2 X W B C (i 0) (i 1)) (csq C) (i 2)

end Cert.Spec

end
-- ==== Proof.Flat.lean ====
/-
  The kernel's [16384, 1024] result as one function of the argument arrays: row `r` of the flattened token matrix is
  token `(r / 1024, r % 1024)`, and entry `(r, n)` is that token's softmax entry `n`, in its second form.
-/
import proofs.«138584_g23519240912944_cont_8to1_1669_27_alg».proof.KernelIdeal
import proofs.«138584_g23519240912944_cont_8to1_1669_27_alg».proof.Proof.Spec

noncomputable section

namespace Cert.KernelIdeal.Flat

open Cert.KernelIdeal Idealize.ShloMosaic

/-- Row `r` of the flattened token matrix is token `(r / 1024, r % 1024)`. -/
def rowB (r : Fin 16384) : Fin 16 := ⟨r.val / 1024, by have := r.isLt; omega⟩
def rowS (r : Fin 16384) : Fin 1024 := ⟨r.val % 1024, Nat.mod_lt _ (by decide)⟩

/-- The [16384, 1024] result: row `r`, column `n` is the softmax entry `n` of token `(r / 1024, r % 1024)`. -/
def flat (X : Cert.Spec.SX.Idx → EReal) (W : Cert.Spec.SW.Idx → EReal) (B : Cert.Spec.SB.Idx → EReal) (C : Cert.Spec.SC.Idx → EReal) :
    S16384x1024.Idx → EReal := fun i =>
  Cert.Spec.kerEntry (Cert.Spec.cross2 X W B C (rowB (i 0)) (rowS (i 0))) (Cert.Spec.csq C) (i 1)

end Cert.KernelIdeal.Flat

end
-- ==== Proof.Words.lean ====
/-
  Four float words the two programs use, as extended reals: the zero word is 0, the word of 2.0 is 2, and the two
  infinity words are the top and bottom of the extended reals.
-/
import Idealize.ShloMosaic.PureOps.Ideal
import Idealize.ShloMosaic.PureOps.Ideal.Laws

noncomputable section

namespace Cert.Words

open Idealize.ShloMosaic

/-- The word `0x7F800000` denotes `+∞`. -/
theorem ofBits_pinf : Ideal.ofBits .f32 0x7F800000#32 = (⊤ : EReal) := by
  simp [Ideal.ofBits, Ideal.ieee]

/-- The word `0xFF800000` denotes `−∞`. -/
theorem ofBits_ninf : Ideal.ofBits .f32 0xFF800000#32 = (⊥ : EReal) := by
  simp [Ideal.ofBits, Ideal.ieee]

/-- The word `0x40000000` denotes `2`. -/
theorem ofBits_two : Ideal.ofBits .f32 0x40000000#32 = (2 : EReal) := by
  simp [Ideal.ofBits, Ideal.ieee]
  rw [← EReal.coe_mul]
  norm_num
  first | rfl | norm_cast

end Cert.Words

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibDotRows.lean ====
/-
  A reusable general lemma: a matrix product that contracts the COLUMNS of both operands, read at an entry.

  The product of an `n` × `K` matrix `l` with the transpose of an `M` × `K` matrix `r` (`l @ r.T`, a linear layer
  whose weight matrix is stored one row per output feature) pairs row `p` of `l` with row `c` of `r`. Its dimension
  numbers index the sum by the contraction shape's positions; when that shape has the one axis of extent `K` and the
  two operand indices at output entry (p, c) and contraction position `k` are (p, k) and (c, k) — four coordinate
  facts a program's literal dimension numbers decide — the sum is `∑ k : Fin K, l (p, k) · r (c, k)`. On the extended
  reals this reads a vector unit's matrix product into a zero accumulator. Stated at any extents.
-/
import Idealize.ShloMosaic.Lib.ValueIdx
import Idealize.ShloMosaic.PureOps.Ideal.Laws

noncomputable section

open scoped BigOperators

namespace Idealize.ShloMosaic.DotRows

open Idealize.ShloMosaic Idealize.ShloMosaic.ValueIdx

/-- The contraction's sum, re-indexed by the one contracted coordinate. -/
theorem sum_contr_eq {n K M : Nat} (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (l : (⟨2, ![n, K]⟩ : Shape).Idx → EReal) (r : (⟨2, ![M, K]⟩ : Shape).Idx → EReal) (p : Fin n) (c : Fin M) :
    ∑ q : D.contr.Idx, l (D.lhsIdx (ix2 p c) q) * r (D.rhsIdx (ix2 p c) q) = ∑ k : Fin K, l (ix2 p k) * r (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 c k := funext fun a => Fin.ext (by
    match a with
    | ⟨0, _⟩ => exact r0 _ _
    | ⟨1, _⟩ => exact (r1 _ _).trans hk)
  rw [el, er]

/-- A vector unit's matrix product into the zero accumulator, at entry (p, c): `∑ k, lhs (p, k) · rhs (c, k)`. -/
theorem matmul_zero_apply {n K M : Nat} {φ₁ φ₂ : FTy}
    (D : DotDims (⟨2, ![n, K]⟩ : Shape) (⟨2, ![M, K]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (i 1).val)
    (r1 : ∀ (i : (⟨2, ![n, M]⟩ : Shape).Idx) (q : D.contr.Idx), (D.rhsIdx i q 1).val = (q ⟨0, by omega⟩).val)
    (prec : Option ContractPrecision) (lhs : FVec Ideal (⟨2, ![n, K]⟩ : Shape) φ₁) (rhs : FVec Ideal (⟨2, ![M, K]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 c k) : EReal) :=
  (Ideal.matmul_constant_zero_apply D prec lhs rhs (ix2 p c)).trans (sum_contr_eq D hr hs l0 l1 r0 r1 lhs rhs p c)

end Idealize.ShloMosaic.DotRows

end
-- ==== Proof.LibRowMin.lean ====
/-
  The smallest entry of each row of a matrix, read at an index — general in the extents.

  Over the extended reals the minimum of an `n × m` matrix along its second axis reads, at `p`, the fold of `min`, from the
  accumulator's value, over the entries `(p, k)` of row `p`: `min` is commutative and associative, so the order in which the
  row is folded does not matter.
-/
import Idealize.ShloMosaic.Lib.ValueIdx
import Idealize.ShloMosaic.PureOps.Ideal.Laws

noncomputable section

namespace Cert.LibRowMin

open Idealize.ShloMosaic Idealize.ShloMosaic.ValueIdx

/-- Over the extended reals a minimum along ONE axis reads, at a reduced index, the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single (FloatOps.minimumf (F := Ideal) (φ := φ)) (FloatOps.ofBits φ acc) src j

/-- Over the extended reals the minimum of an `n × m` matrix along its second axis reads, at `p`, the fold of `min` from the
    accumulator's value over `k` of the entries `(p, k)`. -/
theorem rowMin_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.minimumf.neutral φ hφ)
    (p : Fin n) :
    multiReduction .minimumf [1] ⟨1, ![n]⟩ src acc h hφ hacc (ix1 p)
      = (Finset.univ : Finset (Fin m)).fold min (Ideal.ofBits φ acc) (fun k : Fin m => src (ix2 p k)) := by
  refine (multiReduction_minimumf_single src acc h hφ hacc (ix1 p)).trans ?_
  have hf : (src ∘ h.lift (ix1 p)) = fun k : Fin m => src (ix2 p k) := funext fun k => congrArg src
    (funext fun c => Fin.ext (by match c with | ⟨0, _⟩ => rfl | ⟨1, _⟩ => rfl))
  exact congrArg (fun f => Finset.fold min (Ideal.ofBits φ acc) f (Finset.univ : Finset (Fin m))) hf

end Cert.LibRowMin

end
-- ==== Proof.Payload.lean ====
/-
  The kernel body's arithmetic read at an index, on the extended reals.

  The row of squared norms: entry `n` is `Σ_k C (n, k)²`. The softmax block: with `p j = norms j − Σ_k (Σ_d x (r, d) ·
  W₂ (d, k) + β₂ k) · C (j, k)` for row `r` of the token block, entry `(r, n)` is
  `exp ((m − log Σ_j exp (m − p j)) − p n)`, `m` the least `p j`: the second form of the softmax entry.
-/
import proofs.«138584_g23519240912944_cont_8to1_1669_27_alg».proof.Proof.Gen.KernelIdeal.Skeleton
import proofs.«138584_g23519240912944_cont_8to1_1669_27_alg».proof.Proof.Spec
import proofs.«138584_g23519240912944_cont_8to1_1669_27_alg».proof.Proof.Words
import proofs.«138584_g23519240912944_cont_8to1_1669_27_alg».proof.Proof.LibColumns
import proofs.«138584_g23519240912944_cont_8to1_1669_27_alg».proof.Proof.LibPlainDot
import proofs.«138584_g23519240912944_cont_8to1_1669_27_alg».proof.Proof.LibDotRows
import proofs.«138584_g23519240912944_cont_8to1_1669_27_alg».proof.Proof.LibRowMin
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The row of squared norms -/

/-- Entry `n` of the row of norms is the sum of the squares of the codebook's row `n`. -/
theorem norms_apply (v30 : Vec Ideal S1024x256 .f32) (z : Fin 1) (n : Fin 1024) :
    k0_pay1 (F := Ideal) v30 (ix2 z n) = ∑ k : Fin 256, v30 (ix2 n k) * v30 (ix2 n k) := by
  unfold k0_pay1
  refine (congrFun (shapeCast_self _ _) (ix2 z n)).trans ?_
  refine (shapeCast_a_1a_apply _ _ z n).trans ?_
  exact Cert.LibColumns.rowSum_apply (mulf v30 v30) _ _ _ _ n

/-! ## The two matrix products -/

theorem d1_l0 (i : S2048x256.Idx) (q : dot_S2048x256_S256x256_S2048x256_1_0_0_1_n_n.contr.Idx) : (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem d1_l1 (i : S2048x256.Idx) (q : dot_S2048x256_S256x256_S2048x256_1_0_0_1_n_n.contr.Idx) : (dot_S2048x256_S256x256_S2048x256_1_0_0_1_n_n.lhsIdx i q 1).val = (q ⟨0, by decide⟩).val :=
  dot_S2048x256_S256x256_S2048x256_1_0_0_1_n_n.lhsIdx_val_of_single rfl i q
theorem d1_r0 (i : S2048x256.Idx) (q : dot_S2048x256_S256x256_S2048x256_1_0_0_1_n_n.contr.Idx) : (dot_S2048x256_S256x256_S2048x256_1_0_0_1_n_n.rhsIdx i q 0).val = (q ⟨0, by decide⟩).val :=
  dot_S2048x256_S256x256_S2048x256_1_0_0_1_n_n.rhsIdx_val_of_single rfl i q
theorem d1_r1 (i : S2048x256.Idx) (q : dot_S2048x256_S256x256_S2048x256_1_0_0_1_n_n.contr.Idx) : (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

theorem d2_l0 (i : S2048x1024.Idx) (q : dot_S2048x256_S1024x256_S2048x1024_1_1_0_0_n_n.contr.Idx) : (dot_S2048x256_S1024x256_S2048x1024_1_1_0_0_n_n.lhsIdx i q 0).val = (i 0).val := by
  unfold DotDims.lhsIdx
  rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
  rfl
theorem d2_l1 (i : S2048x1024.Idx) (q : dot_S2048x256_S1024x256_S2048x1024_1_1_0_0_n_n.contr.Idx) : (dot_S2048x256_S1024x256_S2048x1024_1_1_0_0_n_n.lhsIdx i q 1).val = (q ⟨0, by decide⟩).val :=
  dot_S2048x256_S1024x256_S2048x1024_1_1_0_0_n_n.lhsIdx_val_of_single rfl i q
theorem d2_r0 (i : S2048x1024.Idx) (q : dot_S2048x256_S1024x256_S2048x1024_1_1_0_0_n_n.contr.Idx) : (dot_S2048x256_S1024x256_S2048x1024_1_1_0_0_n_n.rhsIdx i q 0).val = (i 1).val := by
  unfold DotDims.rhsIdx
  rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
  rfl
theorem d2_r1 (i : S2048x1024.Idx) (q : dot_S2048x256_S1024x256_S2048x1024_1_1_0_0_n_n.contr.Idx) : (dot_S2048x256_S1024x256_S2048x1024_1_1_0_0_n_n.rhsIdx i q 1).val = (q ⟨0, by decide⟩).val :=
  dot_S2048x256_S1024x256_S2048x1024_1_1_0_0_n_n.rhsIdx_val_of_single rfl i q

/-- A vector's exponential and logarithm read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The doubled features of the block's rows: `x · W₂ + β₂`. -/
def feats (v3 : Vec Ideal S2048x256 .f32) (v5 : Vec Ideal S256x256 .f32) (v8 : Vec Ideal S1x256 .f32) : FVec Ideal S2048x256 .f32 :=
  have v4 : FVec Ideal S2048x256 .f32 := shapeCast S2048x256 v3 shapeCasts_S2048x256_S2048x256
  have v6 : FVec Ideal S256x256 .f32 := shapeCast S256x256 v5 shapeCasts_S256x256_S256x256
  have cst : FVec Ideal S2048x256 .f32 := constant S2048x256 .f32 0x00000000#32
  have v7 : FVec Ideal S2048x256 .f32 := matmul (φ₁ := .f32) (φ₂ := .f32) dot_S2048x256_S256x256_S2048x256_1_0_0_1_n_n none v4 v6 cst
  have v9 : FVec Ideal S1x256 .f32 := shapeCast S1x256 v8 shapeCasts_S1x256_S1x256
  have v10 : FVec Ideal S2048x256 .f32 := broadcastTo S2048x256 v9 broadcasts_S1x256_S2048x256
  addf v7 v10

theorem feats_apply (v3 : Vec Ideal S2048x256 .f32) (v5 : Vec Ideal S256x256 .f32) (v8 : Vec Ideal S1x256 .f32) (p : Fin 2048) (k : Fin 256) :
    feats v3 v5 v8 (ix2 p k) = (∑ d : Fin 256, v3 (ix2 p d) * v5 (ix2 d k)) + v8 (ix2 (0 : Fin 1) k) := by
  unfold feats
  rw [shapeCast_self, shapeCast_self, shapeCast_self, addf_apply]
  refine congrArg₂ (· + ·) ?_ ?_
  · exact Cert.PlainDot.matmul_zero_apply dot_S2048x256_S256x256_S2048x256_1_0_0_1_n_n rfl rfl d1_l0 d1_l1 d1_r0 d1_r1 none (φ₁ := .f32) (φ₂ := .f32) v3 v5 p k
  · exact broadcastTo_1b_ab_apply (α := EReal) v8 _ p k

/-- The shifted distances of the block's rows to the codebook's rows: `norms j − ⟨2f, C j⟩`. -/
def dists (v3 : Vec Ideal S2048x256 .f32) (v5 : Vec Ideal S256x256 .f32) (v8 : Vec Ideal S1x256 .f32) (v12 : Vec Ideal S1024x256 .f32) (v14 : Vec Ideal S1x1024 .f32) : FVec Ideal S2048x1024 .f32 :=
  have cst_8 : FVec Ideal S2048x1024 .f32 := constant S2048x1024 .f32 0x00000000#32
  have v13 : FVec Ideal S2048x1024 .f32 := matmul (φ₁ := .f32) (φ₂ := .f32) dot_S2048x256_S1024x256_S2048x1024_1_1_0_0_n_n none (feats v3 v5 v8) v12 cst_8
  have v15 : FVec Ideal S2048x1024 .f32 := broadcastTo S2048x1024 v14 broadcasts_S1x1024_S2048x1024
  subf v15 v13

theorem dists_apply (v3 : Vec Ideal S2048x256 .f32) (v5 : Vec Ideal S256x256 .f32) (v8 : Vec Ideal S1x256 .f32) (v12 : Vec Ideal S1024x256 .f32) (v14 : Vec Ideal S1x1024 .f32) (p : Fin 2048) (j : Fin 1024) :
    dists v3 v5 v8 v12 v14 (ix2 p j)
      = v14 (ix2 (0 : Fin 1) j) - ∑ k : Fin 256, ((∑ d : Fin 256, v3 (ix2 p d) * v5 (ix2 d k)) + v8 (ix2 (0 : Fin 1) k)) * v12 (ix2 j k) := by
  unfold dists
  rw [subf_apply]
  refine congrArg₂ (· - ·) ?_ ?_
  · exact broadcastTo_1b_ab_apply (α := EReal) v14 _ p j
  · refine (Idealize.ShloMosaic.DotRows.matmul_zero_apply dot_S2048x256_S1024x256_S2048x1024_1_1_0_0_n_n rfl rfl d2_l0 d2_l1 d2_r0 d2_r1 none (φ₁ := .f32) (φ₂ := .f32) (feats v3 v5 v8) v12 p j).trans ?_
    exact Finset.sum_congr rfl fun k _ => by rw [feats_apply]

/-! ## From the shifted distances to the softmax block -/

/-- Each row's least shifted distance, as a column. -/
def rowMinCol (P : FVec Ideal S2048x1024 .f32) : FVec Ideal S2048x1 .f32 :=
  shapeCast S2048x1 (multiReduction .minimumf [1] S2048 P 0x7F800000#32 reduces_S2048x1024_S2048 (.inl rfl) rfl) shapeCasts_S2048_S2048x1

theorem rowMinCol_apply (P : FVec Ideal S2048x1024 .f32) (p : Fin 2048) (z : Fin 1) :
    rowMinCol P (ix2 p z) = (Finset.univ : Finset (Fin 1024)).fold min (⊤ : EReal) (fun j : Fin 1024 => P (ix2 p j)) := by
  unfold rowMinCol
  refine (Cert.LibColumns.shapeCast_a_a1_apply _ _ p z).trans ?_
  refine (Cert.LibRowMin.rowMin_apply P _ _ _ _ p).trans ?_
  rw [Cert.Words.ofBits_pinf]

/-- Each row's sum of `exp (least − p j)`, as a column. -/
def rowSumCol (P : FVec Ideal S2048x1024 .f32) : FVec Ideal S2048x1 .f32 :=
  shapeCast S2048x1 (multiReduction .add [1] S2048 (exp (subf (broadcastTo S2048x1024 (rowMinCol P) broadcasts_S2048x1_S2048x1024) P)) 0x00000000#32 reduces_S2048x1024_S2048 (.inl rfl) rfl) shapeCasts_S2048_S2048x1

theorem rowSumCol_apply (P : FVec Ideal S2048x1024 .f32) (p : Fin 2048) (z : Fin 1) :
    rowSumCol P (ix2 p z)
      = ∑ j : Fin 1024, Ideal.exp ((Finset.univ : Finset (Fin 1024)).fold min (⊤ : EReal) (fun j : Fin 1024 => P (ix2 p j)) - P (ix2 p j)) := by
  unfold rowSumCol
  refine (Cert.LibColumns.shapeCast_a_a1_apply _ _ p z).trans ?_
  refine (Cert.LibColumns.rowSum_apply _ _ _ _ _ p).trans ?_
  refine Finset.sum_congr rfl fun j _ => ?_
  rw [exp_apply, subf_apply, Cert.LibColumns.broadcastTo_a1_ab_apply, rowMinCol_apply]

/-- The softmax block from the shifted distances. -/
def softTail (P : FVec Ideal S2048x1024 .f32) : FVec Ideal S2048x1024 .f32 :=
  exp (subf (broadcastTo S2048x1024 (subf (rowMinCol P) (log (rowSumCol P))) broadcasts_S2048x1_S2048x1024) P)

theorem softTail_apply (P : FVec Ideal S2048x1024 .f32) (p : Fin 2048) (n : Fin 1024) :
    softTail P (ix2 p n)
      = Ideal.exp (((Finset.univ : Finset (Fin 1024)).fold min (⊤ : EReal) (fun j : Fin 1024 => P (ix2 p j))
          - Ideal.log (∑ j : Fin 1024, Ideal.exp ((Finset.univ : Finset (Fin 1024)).fold min (⊤ : EReal) (fun j : Fin 1024 => P (ix2 p j)) - P (ix2 p j))))
        - P (ix2 p n)) := by
  unfold softTail
  rw [exp_apply, subf_apply, Cert.LibColumns.broadcastTo_a1_ab_apply, subf_apply, log_apply, rowMinCol_apply, rowSumCol_apply]

end Cert.KernelIdeal.Payload

end
-- ==== Proof.PayloadBlock.lean ====
/-
  The body's second payload, read at an index: it is the softmax block of its shifted distances, and so its entry
  `(p, n)` is the second form of the softmax entry.
-/
import proofs.«138584_g23519240912944_cont_8to1_1669_27_alg».proof.Proof.Payload

noncomputable section

open scoped BigOperators

namespace Cert.KernelIdeal.Payload

open Cert.KernelIdeal Cert.KernelIdeal.Gen Idealize.ShloMosaic Idealize.ShloMosaic.ValueIdx

/-- The body's second payload is the softmax block of its shifted distances. -/
theorem block_eq (v3 : Vec Ideal S2048x256 .f32) (v5 : Vec Ideal S256x256 .f32) (v8 : Vec Ideal S1x256 .f32) (v12 : Vec Ideal S1024x256 .f32) (v14 : Vec Ideal S1x1024 .f32) :
    k0_pay2 (F := Ideal) v3 v5 v8 v12 v14 = softTail (dists v3 v5 v8 v12 v14) := rfl

/-- The softmax block at row `p`, column `n`: the second form of the softmax entry, from the row's doubled inner
    products with the codebook's rows and the row of norms the body loaded. -/
theorem block_apply (v3 : Vec Ideal S2048x256 .f32) (v5 : Vec Ideal S256x256 .f32) (v8 : Vec Ideal S1x256 .f32) (v12 : Vec Ideal S1024x256 .f32) (v14 : Vec Ideal S1x1024 .f32) (p : Fin 2048) (n : Fin 1024) :
    k0_pay2 (F := Ideal) v3 v5 v8 v12 v14 (ix2 p n)
      = Cert.Spec.kerEntry
          (fun j : Fin 1024 => ∑ k : Fin 256, ((∑ d : Fin 256, v3 (ix2 p d) * v5 (ix2 d k)) + v8 (ix2 (0 : Fin 1) k)) * v12 (ix2 j k))
          (fun j : Fin 1024 => v14 (ix2 (0 : Fin 1) j)) n := by
  rw [block_eq, softTail_apply]
  simp only [dists_apply]
  rfl

end Cert.KernelIdeal.Payload

end
-- ==== Proof.Pieces.lean ====
/-
  What one run of the kernel body leaves behind, as a function of what it loaded.

  At the grid's first point the body stores the codebook rows' squared norms into the carried row buffer, and then the
  softmax block computed from the token block, the doubled weights and bias, the codebook and that same row of norms. At
  every later point it stores only the softmax block, computed from the row of norms the earlier point left.
-/
import proofs.«138584_g23519240912944_cont_8to1_1669_27_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The first point leaves the squared norms of the codebook's rows in the carried buffer. -/
theorem norms_first (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S2048x1024 .f32) (harg5 : arg5.IsWhole) (arg6 : Memref sig .tc .vmem S1x1024 .f32) (harg6 : arg6.IsWhole) (hc0 : cond0_0 i)
    (x0 : Vec F S2048x256 .f32) (x1 : Vec F S256x256 .f32) (x2 : Vec F S1x256 .f32) (x3 : Vec F S1024x256 .f32) :
    sout0_A_0 c i arg1 harg1 arg2 harg2 arg3 harg3 arg4 harg4 arg5 harg5 arg6 harg6 hc0 x0 x1 x2 x3 = k0_pay1 x3 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  try sl_unfold_words
  rw [View.canon_unit_zero hz]
  simp only [View.readAt_eq_ld, harg4.read_unread, View.ld_unit_zero (S := S1024x256) hz]

/-- The first point's softmax block uses the norms it has just stored. -/
theorem block_first (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S2048x1024 .f32) (harg5 : arg5.IsWhole) (arg6 : Memref sig .tc .vmem S1x1024 .f32) (harg6 : arg6.IsWhole) (hc0 : cond0_0 i)
    (x0 : Vec F S2048x256 .f32) (x1 : Vec F S256x256 .f32) (x2 : Vec F S1x256 .f32) (x3 : Vec F S1024x256 .f32) :
    out0_A_4 c i arg1 harg1 arg2 harg2 arg3 harg3 arg4 harg4 arg5 harg5 arg6 harg6 hc0 x0 x1 x2 x3 = k0_pay2 x0 x1 x2 x3 (k0_pay1 x3) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  try sl_unfold_words
  rw [View.canon_unit_zero hz, View.readCov_unit_zero (S := S1x1024) _ hz]
  simp only [View.readAt_eq_ld, harg1.read_unread, harg2.read_unread, harg3.read_unread, harg4.read_unread, harg6.read_unread,
    View.ld_unit_zero (S := S2048x256) hz, View.ld_unit_zero (S := S256x256) hz, View.ld_unit_zero (S := S1x256) hz,
    View.ld_unit_zero (S := S1024x256) hz, View.ld_unit_zero (S := S1x1024) hz]

/-- A later point's softmax block uses the norms the carried buffer holds. -/
theorem block_later (c : Dev nD) (i : grid0.Coords) (arg1 : Memref sig .tc .vmem S2048x256 .f32) (harg1 : arg1.IsWhole) (arg2 : Memref sig .tc .vmem S256x256 .f32) (harg2 : arg2.IsWhole) (arg3 : Memref sig .tc .vmem S1x256 .f32) (harg3 : arg3.IsWhole) (arg4 : Memref sig .tc .vmem S1024x256 .f32) (harg4 : arg4.IsWhole) (arg5 : Memref sig .tc .vmem S2048x1024 .f32) (harg5 : arg5.IsWhole) (arg6 : Memref sig .tc .vmem S1x1024 .f32) (harg6 : arg6.IsWhole) (hc0 : ¬cond0_0 i)
    (x0 : Vec F S2048x256 .f32) (x1 : Vec F S256x256 .f32) (x2 : Vec F S1x256 .f32) (x3 : Vec F S1024x256 .f32) (xs0 : Vec F S1x1024 .f32) :
    out0_B_4 c i arg1 harg1 arg2 harg2 arg3 harg3 arg4 harg4 arg5 harg5 arg6 harg6 hc0 x0 x1 x2 x3 xs0 = k0_pay2 x0 x1 x2 x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  try sl_unfold_words
  rw [View.canon_unit_zero hz]
  simp only [View.readAt_eq_ld, harg1.read_unread, harg2.read_unread, harg3.read_unread, harg4.read_unread, harg6.read_unread,
    View.ld_unit_zero (S := S2048x256) hz, View.ld_unit_zero (S := S256x256) hz, View.ld_unit_zero (S := S1x256) hz,
    View.ld_unit_zero (S := S1024x256) hz, View.ld_unit_zero (S := S1x1024) hz]

end Cert.KernelIdeal.Pieces

end
-- ==== Proof.Carried.lean ====
/-
  What the kernel's output block and its carried row of squared norms hold after every grid point.

  The codebook's window is the whole codebook at every point: its block index is `(0, 0)` throughout. The first point of
  the grid stores the squared norms of the codebook's rows in the carried row; no later point writes it. So, by induction
  over the points, after every point the carried row holds the squared norms of the rows of that point's codebook block
  (the same block everywhere), and the output block is the softmax block computed from the point's own blocks and those
  norms — at the first point from the norms just stored, at a later point from the norms carried over.
-/
import proofs.«138584_g23519240912944_cont_8to1_1669_27_alg».proof.Proof.Gen.KernelIdeal.Frame
import proofs.«138584_g23519240912944_cont_8to1_1669_27_alg».proof.Proof.Pieces

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen

variable {F : FTy → Type} [FloatOps F]
variable (m : (ℓ : Loc nD τ sig) → Buf (Elt F) ℓ)

/-- The codebook window's block index is `(0, 0)` at every point of the grid. -/
theorem idx3 : ∀ t : Fin cfg0.N, win0_3.index t (0 : Fin 2) = 0 ∧ win0_3.index t (1 : Fin 2) = 0 :=
  (by decide +kernel : ∀ t : Fin grid0.N, _)

/-- The codebook's block is the same at every point: the window is the whole array throughout. -/
theorem codebook_block_const (c : Dev nD) (t t' : Fin cfg0.N) : iblk m c 3 t = iblk m c 3 t' := by
  funext y
  show V m c (Pipeline.arrRef spec0 3) (((cfg0.win 3).blk t).view.emb y)
    = V m c (Pipeline.arrRef spec0 3) (((cfg0.win 3).blk t').view.emb y)
  have h : ((cfg0.win 3).blk t).view.emb y = ((cfg0.win 3).blk t').view.emb y := by
    obtain ⟨e0, e1⟩ := idx3 t
    obtain ⟨e0', e1'⟩ := idx3 t'
    funext a
    apply Fin.ext
    match a with
    | ⟨0, _⟩ =>
      show win0_3.index t (0 : Fin 2) * 1024 + 1 * (y 0).val = win0_3.index t' (0 : Fin 2) * 1024 + 1 * (y 0).val
      rw [e0, e0']
    | ⟨1, _⟩ =>
      show win0_3.index t (1 : Fin 2) * 256 + 1 * (y 1).val = win0_3.index t' (1 : Fin 2) * 256 + 1 * (y 1).val
      rw [e1, e1']
  rw [h]

/-- After every point the carried row holds the squared norms of the codebook's rows: the first point stores them, and
    a later point leaves what the point before left. -/
theorem carried (c : Dev nD) : ∀ (n : ℕ) (hn : n < cfg0.N), (outsAt0 m c n hn).2 = k0_pay1 (iblk m c 3 ⟨n, hn⟩) := by
  intro n
  induction n with
  | zero =>
    intro hn
    rw [outsAt0_A m c ⟨0, hn⟩ (Nat.zero_mod 8)]
    dsimp only
    exact Pieces.norms_first (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod 8)) (iblk m c 0 ⟨0, hn⟩) (iblk m c 1 ⟨0, hn⟩) (iblk m c 2 ⟨0, hn⟩) (iblk m c 3 ⟨0, hn⟩)
  | succ n ih =>
    intro hn
    by_cases h0 : (n + 1) % 8 = 0
    · rw [outsAt0_A m c ⟨n + 1, hn⟩ h0]
      dsimp only
      exact Pieces.norms_first (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    · rw [outsAt0_B m c ⟨n + 1, hn⟩ h0]
      dsimp only
      unfold sout0_B_0
      show (outsAt0 m c n _).2 = _
      rw [ih]
      exact congrArg k0_pay1 (codebook_block_const m c _ _)

/-- After every point the output block is the softmax block of the point's own blocks and the squared norms of the
    codebook's rows. -/
theorem block_at (c : Dev nD) (t : Fin cfg0.N) :
    (outsAt0 m c t.val t.isLt).1
      = k0_pay2 (iblk m c 0 t) (iblk m c 1 t) (iblk m c 2 t) (iblk m c 3 t) (k0_pay1 (iblk m c 3 t)) := by
  by_cases h0 : t.val % 8 = 0
  · rw [outsAt0_A m c t h0]
    dsimp only
    exact Pieces.block_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · have hc : (outsAt0 m c (t.val - 1) (Nat.lt_of_le_of_lt (Nat.sub_le _ _) t.isLt)).2 = k0_pay1 (iblk m c 3 t) :=
      (carried m c (t.val - 1) (Nat.lt_of_le_of_lt (Nat.sub_le _ _) t.isLt)).trans
        (congrArg k0_pay1 (codebook_block_const m c _ t))
    rw [outsAt0_B m c t h0]
    dsimp only
    rw [hc]
    exact Pieces.block_later (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (k0_pay1 (iblk m c 3 t))

end Cert.KernelIdeal.Carried

end
-- ==== Proof.LibRowsFlatten.lean ====
/-
  A rank-3 array `[a, b, c]` and the matrix `[a·b, c]` of its rows, one recast as the other, read at an index.
  Row `r = s·b + t` of the matrix is the slice `(s, t, ·)` of the array: both sit at the same row-major position.
  General in the extents; the matrix's row count `n` is named with its equation `n = a·b` so that a literal
  (`16384` for `2048·8`) can be used.
-/
import Idealize.ShloMosaic.Lib.Pipeline.Value
import Idealize.ShloMosaic.Lib.ValueIdx

namespace Cert.LibRowsFlatten

open Idealize.ShloMosaic Idealize.ShloMosaic.ValueIdx

variable {α : Type}

/-- `[a, b, c]` recast as `[n, c]` with `n = a·b`, read at `(r, l)` with `r = s·b + t`: the array at `(s, t, l)`. -/
theorem shapeCast_abc_nc_apply {a b c n : ℕ} (x : (⟨3, ![a, b, c]⟩ : Shape).Idx → α)
    (h : (⟨3, ![a, b, c]⟩ : Shape).ShapeCasts ⟨2, ![n, c]⟩) (s : Fin a) (t : Fin b) (l : Fin c) (r : Fin n)
    (hr : r.val = s.val * b + t.val) :
    shapeCast ⟨2, ![n, c]⟩ x h (ix2 r l) = x (ix3 s t l) :=
  shapeCast_apply x h _ _ (by
    rw [Shape.rowMajor_val_three, Shape.rowMajor_val_two]
    show (s.val * b + t.val) * c + l.val = r.val * c + l.val
    rw [hr])

/-- `[n, c]` with `n = a·b` recast as `[a, b, c]`, read at `(s, t, l)`: the matrix at `(r, l)` with `r = s·b + t`. -/
theorem shapeCast_nc_abc_apply {a b c n : ℕ} (x : (⟨2, ![n, c]⟩ : Shape).Idx → α)
    (h : (⟨2, ![n, c]⟩ : Shape).ShapeCasts ⟨3, ![a, b, c]⟩) (s : Fin a) (t : Fin b) (l : Fin c) (r : Fin n)
    (hr : r.val = s.val * b + t.val) :
    shapeCast ⟨3, ![a, b, c]⟩ x h (ix3 s t l) = x (ix2 r l) :=
  shapeCast_apply x h _ _ (by
    rw [Shape.rowMajor_val_three, Shape.rowMajor_val_two]
    show r.val * c + l.val = (s.val * b + t.val) * c + l.val
    rw [hr])

end Cert.LibRowsFlatten
-- ==== Proof.Blocks.lean ====
/-
  What the kernel's four input blocks hold at a grid point, over the extended reals, as entries of the argument arrays.
  Before the region the host recasts the tokens `[16, 1024, 256]` as the matrix `[16384, 256]` of their rows, doubles the
  weights and the bias (a product with the broadcast constant 2), and recasts the doubled bias `[256]` as `[1, 256]`;
  the codebook is passed as it is. The first window then takes rows `2048·t … 2048·t + 2047` of the row matrix at grid
  point `t`; the other three windows take their whole arrays at every point.
-/
import proofs.«138584_g23519240912944_cont_8to1_1669_27_alg».proof.Proof.Gen.KernelIdeal.Frame
import proofs.«138584_g23519240912944_cont_8to1_1669_27_alg».proof.Proof.Words
import proofs.«138584_g23519240912944_cont_8to1_1669_27_alg».proof.Proof.LibRowsFlatten
import Idealize.ShloMosaic.Lib.ValueLayout
import Idealize.ShloMosaic.Lib.Pipeline.Value
import Idealize.ShloMosaic.Lib.ValueIdx
import Idealize.ShloMosaic.Lib.IdealHost
import Idealize.ShloMosaic.Lib.StableHlo.Run
import Idealize.ShloMosaic.Lib.Tactic

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-! ## The host operations before the region -/

/-- The row matrix: the tokens recast from `[16, 1024, 256]` to `[16384, 256]`. -/
theorem V_main_call0_v0 (c : Dev nD) :
    (V m c main_call0_v0 : S16384x256.Idx → EReal)
      = shapeCast S16384x256 (m ((c : Thread nD τ).loc main_arg0) : S16x1024x256.Idx → EReal) shapeCasts_S16x1024x256_S16384x256 := by
  show StableHlo.after hostOps0 (fun b => m (c, b)) (Proc.devRef .tc main_call0_v0) = _
  after_results
  rfl

/-- The doubled weights: the broadcast constant 2 times the weights. -/
theorem V_main_call0_v2 (c : Dev nD) :
    (V m c main_call0_v2 : S256x256.Idx → EReal)
      = mulf (broadcastInDim S256x256 ![] bcast_S_S256x256 (constant (F := Ideal) S_ .f32 0x40000000#32))
          (m ((c : Thread nD τ).loc main_arg1) : S256x256.Idx → EReal) := by
  show StableHlo.after hostOps0 (fun b => m (c, b)) (Proc.devRef .tc main_call0_v2) = _
  after_results
  rfl

/-- The doubled bias as a one-row matrix. -/
theorem V_main_call0_v5 (c : Dev nD) :
    (V m c main_call0_v5 : S1x256.Idx → EReal)
      = shapeCast S1x256 (mulf (broadcastInDim S256 ![] bcast_S_S256 (constant (F := Ideal) S_ .f32 0x40000000#32))
          (m ((c : Thread nD τ).loc main_arg2) : S256.Idx → EReal)) shapeCasts_S256_S1x256 := by
  show StableHlo.after hostOps0 (fun b => m (c, b)) (Proc.devRef .tc main_call0_v5) = _
  after_results
  rfl

/-! ## The index maps over the grid -/

/-- The printed index maps, decided over the grid: the first window's block index is `(t, 0)`, the other three
    windows' is `(0, 0)` at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## Doubling, at an index -/

/-- The product with the broadcast constant whose word is that of 2.0 reads, at an index, twice the entry. -/
theorem two_mul_apply {s : Shape} (hb : S_.BroadcastsInDim s (![] : Fin 0 → Fin s.rank)) (x : s.Idx → EReal) (i : s.Idx) :
    mulf (F := Ideal) (φ := .f32) (broadcastInDim s ![] hb (constant (F := Ideal) S_ .f32 0x40000000#32)) x i = 2 * x i := by
  show (broadcastInDim s ![] hb (constant (F := Ideal) S_ .f32 0x40000000#32) i : EReal) * x i = 2 * x i
  rw [broadcastInDim_scalar_apply, constant_apply, Cert.Words.ofBits_two]

/-! ## The four blocks at an index -/

/-- Window 0 at point `t`: entry `(p, d)` is the token array at `(b, s, d)` where `2048·t + p = 1024·b + s`. -/
theorem tokens_apply (c : Dev nD) (t : Fin cfg0.N) (p : Fin 2048) (d : Fin 256) (b : Fin 16) (s : Fin 1024)
    (h : 2048 * t.val + p.val = 1024 * b.val + s.val) :
    iblk m c 0 t (ix2 p d) = (m ((c : Thread nD τ).loc main_arg0) : S16x1024x256.Idx → EReal) (ix3 b s d) := by
  obtain ⟨e0, e1, -⟩ := idx_facts t
  have hr : 2048 * t.val + p.val < 16384 := by have := b.isLt; have := s.isLt; omega
  have e : ((cfg0.win 0).blk t).view.emb (ix2 p d) = (ix2 (⟨2048 * t.val + p.val, hr⟩ : Fin 16384) d : S16384x256.Idx) :=
    funext fun a => Fin.ext (by
      match a with
      | ⟨0, _⟩ => show win0_0.index t (0 : Fin 2) * 2048 + 1 * p.val = 2048 * t.val + p.val; rw [e0]; omega
      | ⟨1, _⟩ => show win0_0.index t (1 : Fin 2) * 256 + 1 * d.val = d.val; rw [e1]; omega)
  show V m c main_call0_v0 (((cfg0.win 0).blk t).view.emb (ix2 p d)) = _
  rw [e, V_main_call0_v0]
  exact Cert.LibRowsFlatten.shapeCast_abc_nc_apply _ _ b s d _ (by show 2048 * t.val + p.val = b.val * 1024 + s.val; omega)

/-- Window 1 at any point: entry `(d, k)` is twice the weight at `(d, k)`. -/
theorem weights_apply (c : Dev nD) (t : Fin cfg0.N) (d k : Fin 256) :
    (iblk m c 1 t (ix2 d k) : EReal) = (2 : EReal) * (m ((c : Thread nD τ).loc main_arg1) : S256x256.Idx → EReal) (ix2 d k) := by
  obtain ⟨-, -, e0, e1, -⟩ := idx_facts t
  have e : ((cfg0.win 1).blk t).view.emb (ix2 d k) = (ix2 d k : S256x256.Idx) :=
    funext fun a => Fin.ext (by
      match a with
      | ⟨0, _⟩ => show win0_1.index t (0 : Fin 2) * 256 + 1 * d.val = d.val; rw [e0]; omega
      | ⟨1, _⟩ => show win0_1.index t (1 : Fin 2) * 256 + 1 * k.val = k.val; rw [e1]; omega)
  show V m c main_call0_v2 (((cfg0.win 1).blk t).view.emb (ix2 d k)) = _
  rw [e, V_main_call0_v2]
  exact two_mul_apply bcast_S_S256x256 _ _

/-- Window 2 at any point: entry `(0, k)` is twice the bias at `k`. -/
theorem bias_apply (c : Dev nD) (t : Fin cfg0.N) (z : Fin 1) (k : Fin 256) :
    (iblk m c 2 t (ix2 z k) : EReal) = (2 : EReal) * (m ((c : Thread nD τ).loc main_arg2) : S256.Idx → EReal) (ix1 k) := by
  obtain ⟨-, -, -, -, e0, e1, -⟩ := idx_facts t
  have e : ((cfg0.win 2).blk t).view.emb (ix2 z k) = (ix2 z k : S1x256.Idx) :=
    funext fun a => Fin.ext (by
      match a with
      | ⟨0, _⟩ => show win0_2.index t (0 : Fin 2) * 1 + 1 * z.val = z.val; rw [e0]; omega
      | ⟨1, _⟩ => show win0_2.index t (1 : Fin 2) * 256 + 1 * k.val = k.val; rw [e1]; omega)
  show V m c main_call0_v5 (((cfg0.win 2).blk t).view.emb (ix2 z k)) = _
  rw [e, V_main_call0_v5, shapeCast_a_1a_apply]
  exact two_mul_apply bcast_S_S256 _ _

/-- Window 3 at any point: entry `(n, k)` is the codebook at `(n, k)`. -/
theorem codebook_apply (c : Dev nD) (t : Fin cfg0.N) (n : Fin 1024) (k : Fin 256) :
    iblk m c 3 t (ix2 n k) = (m ((c : Thread nD τ).loc main_arg3) : S1024x256.Idx → EReal) (ix2 n k) := by
  obtain ⟨-, -, -, -, -, -, e0, e1⟩ := idx_facts t
  have e : ((cfg0.win 3).blk t).view.emb (ix2 n k) = (ix2 n k : S1024x256.Idx) :=
    funext fun a => Fin.ext (by
      match a with
      | ⟨0, _⟩ => show win0_3.index t (0 : Fin 2) * 1024 + 1 * n.val = n.val; rw [e0]; omega
      | ⟨1, _⟩ => show win0_3.index t (1 : Fin 2) * 256 + 1 * k.val = k.val; rw [e1]; omega)
  show V m c main_arg3 (((cfg0.win 3).blk t).view.emb (ix2 n k)) = _
  rw [e, V_main_arg3]

end Cert.KernelIdeal.Blocks

end
-- ==== Proof.Final.lean ====
/-
  From the blocks to the arrays, and the kernel program's run.

  Grid point `t` writes back rows `2048·t … 2048·t + 2047` of the [16384, 1024] result; the eight points tile it, so the
  array ends holding, at row `r = 1024·b + s` and column `n`, the second form of the softmax entry for token `(b, s)`.
  The program's last line recasts that array as [16, 1024, 1024], which reads the same entry at `(b, s, n)`.
-/
import proofs.«138584_g23519240912944_cont_8to1_1669_27_alg».proof.Proof.Gen.KernelIdeal.Frame
import proofs.«138584_g23519240912944_cont_8to1_1669_27_alg».proof.Proof.Flat
import proofs.«138584_g23519240912944_cont_8to1_1669_27_alg».proof.Proof.PayloadBlock
import proofs.«138584_g23519240912944_cont_8to1_1669_27_alg».proof.Proof.Carried
import proofs.«138584_g23519240912944_cont_8to1_1669_27_alg».proof.Proof.Blocks
import proofs.«138584_g23519240912944_cont_8to1_1669_27_alg».proof.Proof.LibRowsFlatten
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Flat Idealize.ShloMosaic.ValueIdx

variable (m : (ℓ : Loc nD τ sig) → Buf (Elt Ideal) ℓ) (ρ : Dev nD → PrngReg)

/-- The output window's block index at point `t` is `(t, 0)`: decided over the grid. -/
theorem idx4 : ∀ t : Fin cfg0.N, win0_4.index t (0 : Fin 2) = t.val ∧ win0_4.index t (1 : Fin 2) = 0 :=
  (by decide +kernel : ∀ t : Fin grid0.N, _)

/-- What point `t` writes back is block `t` of the flattened result. -/
theorem flushed_eq (c : Dev nD) (t : Fin cfg0.N) :
    (dats m 0 c).flushed 4 t = ((cfg0.win 4).blk t).view.read (Elt Ideal)
      (flat (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4, Cert.KernelIdeal.Carried.block_at m c t]
  funext y
  obtain ⟨p, n, rfl⟩ : ∃ (p : Fin 2048) (n : Fin 1024), y = ix2 p n := ⟨y 0, y 1, eq_ix2 y⟩
  have hp := p.isLt
  have hN : cfg0.N = 8 := N_0
  have ht := t.isLt
  obtain ⟨e0, e1⟩ := idx4 t
  have he : ((cfg0.win 4).blk t).view.emb (ix2 p n) = ix2 (⟨2048 * t.val + p.val, by omega⟩ : Fin 16384) n :=
    funext fun a => Fin.ext (by
      match a with
      | ⟨0, _⟩ => show win0_4.index t (0 : Fin 2) * 2048 + 1 * p.val = 2048 * t.val + p.val; rw [e0]; omega
      | ⟨1, _⟩ => show win0_4.index t (1 : Fin 2) * 1024 + 1 * n.val = n.val; rw [e1]; omega)
  rw [View.read_apply, he]
  show k0_pay2 (F := Ideal) (iblk m c 0 t) (iblk m c 1 t) (iblk m c 2 t) (iblk m c 3 t) (k0_pay1 (iblk m c 3 t)) (ix2 p n)
    = Cert.Spec.kerEntry (Cert.Spec.cross2 _ _ _ _ (rowB ⟨2048 * t.val + p.val, by omega⟩) (rowS ⟨2048 * t.val + p.val, by omega⟩)) (Cert.Spec.csq _) n
  refine (Cert.KernelIdeal.Payload.block_apply (iblk m c 0 t) (iblk m c 1 t) (iblk m c 2 t) (iblk m c 3 t) (k0_pay1 (iblk m c 3 t)) p n).trans ?_
  have hrow : 2048 * t.val + p.val
      = 1024 * (rowB ⟨2048 * t.val + p.val, by omega⟩).val + (rowS ⟨2048 * t.val + p.val, by omega⟩).val := by
    show 2048 * t.val + p.val = 1024 * ((2048 * t.val + p.val) / 1024) + (2048 * t.val + p.val) % 1024
    omega
  refine congrArg₂ (fun a b => Cert.Spec.kerEntry a b n) ?_ ?_
  · funext j
    unfold Cert.Spec.cross2 Cert.Spec.feat2
    refine Finset.sum_congr rfl fun k _ => ?_
    rw [Cert.KernelIdeal.Blocks.codebook_apply m c t j k, Cert.KernelIdeal.Blocks.bias_apply m c t 0 k]
    refine congrArg (· * _) (congrArg (· + _) (Finset.sum_congr rfl fun d _ => ?_))
    rw [Cert.KernelIdeal.Blocks.tokens_apply m c t p d _ _ hrow, Cert.KernelIdeal.Blocks.weights_apply m c t d k]
  · funext j
    refine (Cert.KernelIdeal.Payload.norms_apply (iblk m c 3 t) 0 j).trans ?_
    unfold Cert.Spec.csq
    exact Finset.sum_congr rfl fun k _ => by rw [Cert.KernelIdeal.Blocks.codebook_apply m c t j k]

/-- An index of the array is in point `t`'s block iff each coordinate is in the block's range on its axis. -/
theorem mem_blk (t : Fin cfg0.N) (i : S16384x1024.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_call0_v6).slice (win0_4.rect t)).set ↔ _
  rw [View.set_slice_whole, Rect.mem_set_unit]
  exact Iff.rfl

/-- Every index of the result is in the block of the point that holds its row. -/
theorem cover (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have hN : cfg0.N = 8 := N_0
  refine ⟨⟨(i 0).val / 2048, by omega⟩, flush0_4 _, ?_⟩
  rw [mem_blk]
  obtain ⟨e0, e1⟩ := idx4 ⟨(i 0).val / 2048, by omega⟩
  intro a
  match a with
  | ⟨0, _⟩ =>
    show win0_4.index _ (0 : Fin 2) * 2048 ≤ (i 0).val ∧ (i 0).val < win0_4.index _ (0 : Fin 2) * 2048 + 2048
    rw [e0]; dsimp only; omega
  | ⟨1, _⟩ =>
    show win0_4.index _ (1 : Fin 2) * 1024 ≤ (i 1).val ∧ (i 1).val < win0_4.index _ (1 : Fin 2) * 1024 + 1024
    rw [e1]; omega

/-- The result array after the region. -/
theorem final (c : Dev nD) : (dats m 0 c).arrAt 4 cfg0.N
    = flat (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

end Cert.KernelIdeal.Final

end
-- ==== Proof.KernelRun.lean ====
/-
  The kernel program's run with its result named. After the region the program recasts the [16384, 1024] array as
  [16, 1024, 1024]: row `1024·b + s` becomes the slice `(b, s, ·)`, so the result reads, at `(b, s, n)`, token `(b, s)`'s
  softmax entry `n` in its second form.
-/
import proofs.«138584_g23519240912944_cont_8to1_1669_27_alg».proof.Proof.Gen.KernelIdeal.Frame
import proofs.«138584_g23519240912944_cont_8to1_1669_27_alg».proof.Proof.Flat
import proofs.«138584_g23519240912944_cont_8to1_1669_27_alg».proof.Proof.LibRowsFlatten
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Flat Idealize.ShloMosaic.ValueIdx

variable (m : (ℓ : Loc nD τ sig) → Buf (Elt Ideal) ℓ) (ρ : Dev nD → PrngReg)

/-- The recast of the flattened result reads, at `(b, s, n)`, token `(b, s)`'s entry `n`. -/
theorem recast_flat (X : Cert.Spec.SX.Idx → EReal) (W : Cert.Spec.SW.Idx → EReal) (B : Cert.Spec.SB.Idx → EReal) (C : Cert.Spec.SC.Idx → EReal) :
    shapeCast S16x1024x1024 (flat X W B C) shapeCasts_S16384x1024_S16x1024x1024 = Cert.Spec.kerOut X W B C := by
  funext i
  obtain ⟨b, s, n, rfl⟩ : ∃ (b : Fin 16) (s : Fin 1024) (n : Fin 1024), i = ix3 b s n := ⟨i 0, i 1, i 2, eq_ix3 i⟩
  have hb := b.isLt
  have hs := s.isLt
  refine (Cert.LibRowsFlatten.shapeCast_nc_abc_apply (flat X W B C) _ b s n ⟨b.val * 1024 + s.val, by omega⟩ rfl).trans ?_
  unfold flat Cert.Spec.kerOut
  have eb : rowB ⟨b.val * 1024 + s.val, by omega⟩ = b := Fin.ext (by show (b.val * 1024 + s.val) / 1024 = b.val; omega)
  have es : rowS ⟨b.val * 1024 + s.val, by omega⟩ = s := Fin.ext (by show (b.val * 1024 + s.val) % 1024 = s.val; omega)
  show Cert.Spec.kerEntry (Cert.Spec.cross2 X W B C (rowB ⟨b.val * 1024 + s.val, _⟩) (rowS ⟨b.val * 1024 + s.val, _⟩)) (Cert.Spec.csq C) n = Cert.Spec.kerEntry (Cert.Spec.cross2 X W B C b s) (Cert.Spec.csq C) n
  rw [eb, es]

/-- The program's result buffer after the run, given what the region left in its output array. -/
theorem tail_value (c : Dev nD)
    (hfinal : (dats m 0 c).arrAt 4 cfg0.N = flat (m ((c : Thread nD τ).loc main_arg0)) (m ((c : Thread nD τ).loc main_arg1)) (m ((c : Thread nD τ).loc main_arg2)) (m ((c : Thread nD τ).loc main_arg3))) :
    Pipeline.afterTail₀ cfgs (dats m) 0 (V0 m) [hostOps1] c main_v0
      = Cert.Spec.kerOut (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v6)
      = flat (m ((c : Thread nD τ).loc main_arg0)) (m ((c : Thread nD τ).loc main_arg1)) (m ((c : Thread nD τ).loc main_arg2)) (m ((c : Thread nD τ).loc main_arg3)) :=
    (Pipeline.withArrays_arr spec0 launch0.win.arr_inj c _ _ 4).trans hfinal
  show shapeCast S16x1024x1024 (Pipeline.withArrays (cfgs 0).spec c (V0 m c) (fun w => (dats m 0 c).arrAt w (cfgs 0).N) (Proc.devRef .tc main_call0_v6)) shapeCasts_S16384x1024_S16x1024x1024 = _
  rw [hw]
  exact recast_flat _ _ _ _

end Cert.KernelIdeal.KernelRun

end
-- ==== Proof.LibHostLastMax.lean ====
/-
  The host's largest entry along the last axis of a rank-3 array, read at an index — general in the extents.

  A one-operand reduction with a maximum body along the last axis of an `a × b × c` array reads, at `(p, q)`, the fold
  of `max`, from the initial value, over the entries `(p, q, k)`: over the extended reals `max` is commutative and
  associative, so the order of the fold does not matter.  And taking the maximum of such a fold with its own starting
  value once more changes nothing (a softmax's row maximum is printed that way).
-/
import Idealize.ShloMosaic.Lib.ValueIdx
import Idealize.ShloMosaic.PureOps.Ideal.Laws

noncomputable section

namespace Cert.LibHostLastMax

open Idealize.ShloMosaic Idealize.ShloMosaic.ValueIdx

/-- Over the extended reals the host's reduction by `max` of an `a × b × c` array along its last axis reads, at
    `(p, q)`, the fold of `max` from the initial value over `k` of the entries `(p, q, k)`. -/
theorem hostLastMax_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.maximumf x init h' hu (ix2 p q)
      = (Finset.univ : Finset (Fin c)).fold max (init (Shape.Idx.first hu)) (fun k : Fin c => x (ix3 p q k)) := by
  refine (Host.reduce_eq_fold_single FloatOps.maximumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold max (init (Shape.Idx.first hu)) f (Finset.univ : Finset (Fin c))) hf

/-- The maximum of a fold of `max` with the fold's own starting value is the fold. -/
theorem max_init_fold {ι : Type} (s : Finset ι) (init : EReal) (f : ι → EReal) :
    max init (s.fold max init f) = s.fold max init f :=
  max_eq_right ((Finset.le_fold_max init).mpr (Or.inl le_rfl))

end Cert.LibHostLastMax

end
-- ==== Proof.RefValue.lean ====
/-
  The first program, read one operation at a time, computes the softmax of the negated squared distances.

  Its stages, at a token `(b, s)`, a feature `k` and a codebook row `n`: the features `f k = Σ_d X (b, s, d)·W (d, k) + B k`;
  the squared norm `‖f‖² = 0 + Σ_k f k · f k`; the squared norms `‖C n‖² = 0 + Σ_k C (n, k)·C (n, k)`; the inner
  products `⟨f, C n⟩`; the squared distance `‖f‖² − 2·⟨f, C n⟩ + ‖C n‖²` and its negation; the largest negated distance
  over `n` (a fold of `max` from `−∞`, then `max` with `−∞` once more); the exponential of the difference; the sum of the
  exponentials over `n`; and the quotient. Each broadcast only repeats a value along the axes it adds, so at an index it
  reads its operand at the remaining coordinates.
-/
import proofs.«138584_g23519240912944_cont_8to1_1669_27_alg».proof.Proof.Gen.ReferenceIdeal.Read
import proofs.«138584_g23519240912944_cont_8to1_1669_27_alg».proof.Proof.Spec
import proofs.«138584_g23519240912944_cont_8to1_1669_27_alg».proof.Proof.Words
import proofs.«138584_g23519240912944_cont_8to1_1669_27_alg».proof.Proof.LibHostLastMax
import Idealize.ShloMosaic.Lib.ValueIdx
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

variable (x0 : (⟨S16x1024x256, .f32⟩ : BufTy).Contents (Elt Ideal)) (x1 : (⟨S256x256, .f32⟩ : BufTy).Contents (Elt Ideal)) (x2 : (⟨S256, .f32⟩ : BufTy).Contents (Elt Ideal)) (x3 : (⟨S1024x256, .f32⟩ : BufTy).Contents (Elt Ideal))

/-! ## The features and the three quadratic forms -/

/-- The features: the product with the weights plus the broadcast bias. -/
theorem v3_at (b : Fin 16) (s : Fin 1024) (k : Fin 256) :
    val_main_v3 (F := Ideal) x0 x1 x2 (ix3 b s k) = Cert.Spec.feat x0 x1 x2 b s k := by
  rw [val_main_v3_apply, val_main_v0_apply, val_main_v2_apply, val_main_v1_apply, Ideal.addf_def]
  have hl : ∀ d : Fin 256, lidx_main_v0 (ix3 b s k) d = ix3 b s d := fun d => funext fun a => by
    match a with | ⟨0, _⟩ => rfl | ⟨1, _⟩ => rfl | ⟨2, _⟩ => rfl
  have hr : ∀ d : Fin 256, ridx_main_v0 (ix3 b s k) d = ix2 d k := fun d => funext fun a => by
    match a with | ⟨0, _⟩ => rfl | ⟨1, _⟩ => rfl
  have hb : idx_main_v1 (idx_main_v2 (ix3 b s k)) = ix1 k := funext fun a => by
    match a with | ⟨0, _⟩ => rfl
  simp only [hl, hr, hb]
  rfl

/-- The zero word is `0`. -/
theorem zero_word : FloatOps.ofBits (F := Ideal) .f32 0x00000000#32 = (0 : EReal) := by
  rw [Ideal.ofBits_def, Ideal.ofBits_zero_f32]

/-- The squared norm of the features. -/
theorem v5_at (b : Fin 16) (s : Fin 1024) :
    val_main_v5 (F := Ideal) x0 x1 x2 (ix2 b s) = Cert.Spec.xsq x0 x1 x2 b s := by
  rw [val_main_v5_apply, val_main_cst_apply, zero_word, zero_add]
  unfold Cert.Spec.xsq
  refine Finset.sum_congr rfl fun k _ => ?_
  have hi : idx_main_v5 (ix2 b s) k = ix3 b s k := funext fun a => by
    match a with | ⟨0, _⟩ => rfl | ⟨1, _⟩ => rfl | ⟨2, _⟩ => rfl
  rw [hi, val_main_v4_apply, Ideal.mulf_def, v3_at]

/-- The squared norm of the features, repeated along the codebook axis. -/
theorem v12_at (b : Fin 16) (s : Fin 1024) (n : Fin 1024) :
    val_main_v12 (F := Ideal) x0 x1 x2 (ix3 b s n) = Cert.Spec.xsq x0 x1 x2 b s := by
  rw [val_main_v12_apply, val_main_v6_apply]
  have hi : idx_main_v6 (idx_main_v12 (ix3 b s n)) = ix2 b s := funext fun a => by
    match a with | ⟨0, _⟩ => rfl | ⟨1, _⟩ => rfl
  rw [hi, v5_at]

/-- The squared norm of a codebook row. -/
theorem v8_at (n : Fin 1024) : val_main_v8 (F := Ideal) x3 (ix1 n) = Cert.Spec.csq x3 n := by
  rw [val_main_v8_apply, val_main_cst_0_apply, zero_word, zero_add]
  unfold Cert.Spec.csq
  refine Finset.sum_congr rfl fun k _ => ?_
  have hi : idx_main_v8 (ix1 n) k = ix2 n k := funext fun a => by
    match a with | ⟨0, _⟩ => rfl | ⟨1, _⟩ => rfl
  rw [hi, val_main_v7_apply, Ideal.mulf_def]

/-- The squared norm of a codebook row, repeated along the token axes. -/
theorem v15_at (b : Fin 16) (s : Fin 1024) (n : Fin 1024) :
    val_main_v15 (F := Ideal) x3 (ix3 b s n) = Cert.Spec.csq x3 n := by
  rw [val_main_v15_apply, val_main_v14_apply]
  have hi : idx_main_v14 (idx_main_v15 (ix3 b s n)) = ix1 n := funext fun a => by
    match a with | ⟨0, _⟩ => rfl
  rw [hi, v8_at]

/-- The inner product of the features with a codebook row. -/
theorem v9_at (b : Fin 16) (s : Fin 1024) (n : Fin 1024) :
    val_main_v9 (F := Ideal) x0 x1 x2 x3 (ix3 b s n) = Cert.Spec.cross x0 x1 x2 x3 b s n := by
  rw [val_main_v9_apply]
  unfold Cert.Spec.cross
  refine Finset.sum_congr rfl fun k _ => ?_
  have hl : lidx_main_v9 (ix3 b s n) k = ix3 b s k := funext fun a => by
    match a with | ⟨0, _⟩ => rfl | ⟨1, _⟩ => rfl | ⟨2, _⟩ => rfl
  have hr : ridx_main_v9 (ix3 b s n) k = ix2 n k := funext fun a => by
    match a with | ⟨0, _⟩ => rfl | ⟨1, _⟩ => rfl
  rw [hl, hr, v3_at]

/-- Twice the inner product. -/
theorem v11_at (b : Fin 16) (s : Fin 1024) (n : Fin 1024) :
    val_main_v11 (F := Ideal) x0 x1 x2 x3 (ix3 b s n) = 2 * Cert.Spec.cross x0 x1 x2 x3 b s n := by
  rw [val_main_v11_apply, val_main_v10_apply, val_main_cst_1_apply, Ideal.ofBits_def, Cert.Words.ofBits_two,
    Ideal.mulf_def, v9_at]

/-! ## The negated squared distance and its largest value -/

/-- The negated squared distance from the features to a codebook row. -/
theorem v17_at (b : Fin 16) (s : Fin 1024) (n : Fin 1024) :
    val_main_v17 (F := Ideal) x0 x1 x2 x3 (ix3 b s n)
      = -(Cert.Spec.xsq x0 x1 x2 b s - 2 * Cert.Spec.cross x0 x1 x2 x3 b s n + Cert.Spec.csq x3 n) := by
  rw [val_main_v17_apply, Ideal.hostNegf_def, Ideal.negf_def, val_main_v16_apply, Ideal.addf_def, val_main_v13_apply,
    Ideal.subf_def, v12_at, v11_at, v15_at]

/-- The word of `−∞` is the bottom of the extended reals. -/
theorem ninf_word : FloatOps.ofBits (F := Ideal) .f32 0xFF800000#32 = (⊥ : EReal) := by
  rw [Ideal.ofBits_def, Cert.Words.ofBits_ninf]

/-- The largest negated distance over the codebook rows: the fold of `max` from `−∞`. -/
theorem v18_at (b : Fin 16) (s : Fin 1024) :
    val_main_v18 (F := Ideal) x0 x1 x2 x3 (ix2 b s)
      = Finset.univ.fold max ⊥ fun j : Fin 1024 =>
          -(Cert.Spec.xsq x0 x1 x2 b s - 2 * Cert.Spec.cross x0 x1 x2 x3 b s j + Cert.Spec.csq x3 j) := by
  have h := Cert.LibHostLastMax.hostLastMax_apply (a := 16) (b := 1024) (c := 1024) (φ := .f32) (u := S_)
    (val_main_v17 (F := Ideal) x0 x1 x2 x3) (val_main_cst_2 (F := Ideal))
    reducesTo_S16x1024x1024_S16x1024_d2 (by decide) h_S_ b s
  have hf : (fun k : Fin 1024 => val_main_v17 (F := Ideal) x0 x1 x2 x3 (ix3 b s k))
      = fun j : Fin 1024 =>
          -(Cert.Spec.xsq x0 x1 x2 b s - 2 * Cert.Spec.cross x0 x1 x2 x3 b s j + Cert.Spec.csq x3 j) :=
    funext fun k => v17_at x0 x1 x2 x3 b s k
  rw [val_main_cst_2_apply, ninf_word, hf] at h
  exact h

/-- The same with `max` against `−∞` once more. -/
theorem v22_at (b : Fin 16) (s : Fin 1024) (n : Fin 1024) :
    val_main_v22 (F := Ideal) x0 x1 x2 x3 (ix3 b s n)
      = max ⊥ (Finset.univ.fold max ⊥ fun j : Fin 1024 =>
          -(Cert.Spec.xsq x0 x1 x2 b s - 2 * Cert.Spec.cross x0 x1 x2 x3 b s j + Cert.Spec.csq x3 j)) := by
  rw [val_main_v22_apply, val_main_v21_apply]
  have hi : idx_main_v21 (idx_main_v22 (ix3 b s n)) = ix2 b s := funext fun a => by
    match a with | ⟨0, _⟩ => rfl | ⟨1, _⟩ => rfl
  rw [hi, val_main_v20_apply, Ideal.maximumf_def, val_main_v19_apply, val_main_cst_3_apply, ninf_word, v18_at]

/-! ## The exponentials, their sum, and the quotient -/

/-- The exponential of the negated distance less the largest one. -/
theorem v24_at (b : Fin 16) (s : Fin 1024) (n : Fin 1024) :
    val_main_v24 (F := Ideal) x0 x1 x2 x3 (ix3 b s n)
      = Ideal.exp (-(Cert.Spec.xsq x0 x1 x2 b s - 2 * Cert.Spec.cross x0 x1 x2 x3 b s n + Cert.Spec.csq x3 n)
          - max ⊥ (Finset.univ.fold max ⊥ fun j : Fin 1024 =>
              -(Cert.Spec.xsq x0 x1 x2 b s - 2 * Cert.Spec.cross x0 x1 x2 x3 b s j + Cert.Spec.csq x3 j))) := by
  rw [val_main_v24_apply, Ideal.hostUnary_exp_def, val_main_v23_apply, Ideal.subf_def, v17_at, v22_at]

/-- The sum of the exponentials over the codebook rows, repeated along the codebook axis. -/
theorem v27_at (b : Fin 16) (s : Fin 1024) (n : Fin 1024) :
    val_main_v27 (F := Ideal) x0 x1 x2 x3 (ix3 b s n)
      = ∑ i : Fin 1024,
          Ideal.exp (-(Cert.Spec.xsq x0 x1 x2 b s - 2 * Cert.Spec.cross x0 x1 x2 x3 b s i + Cert.Spec.csq x3 i)
            - max ⊥ (Finset.univ.fold max ⊥ fun j : Fin 1024 =>
                -(Cert.Spec.xsq x0 x1 x2 b s - 2 * Cert.Spec.cross x0 x1 x2 x3 b s j + Cert.Spec.csq x3 j))) := by
  rw [val_main_v27_apply, val_main_v26_apply]
  have hi : idx_main_v26 (idx_main_v27 (ix3 b s n)) = ix2 b s := funext fun a => by
    match a with | ⟨0, _⟩ => rfl | ⟨1, _⟩ => rfl
  rw [hi, val_main_v25_apply, val_main_cst_4_apply, zero_word, zero_add]
  refine Finset.sum_congr rfl fun k _ => ?_
  have hk : idx_main_v25 (ix2 b s) k = ix3 b s k := funext fun a => by
    match a with | ⟨0, _⟩ => rfl | ⟨1, _⟩ => rfl | ⟨2, _⟩ => rfl
  rw [hk, v24_at]

/-- The first program's result is the softmax of the negated squared distances, entry by entry. -/
theorem ref_is_refOut (x0 : (⟨S16x1024x256, .f32⟩ : BufTy).Contents (Elt Ideal)) (x1 : (⟨S256x256, .f32⟩ : BufTy).Contents (Elt Ideal)) (x2 : (⟨S256, .f32⟩ : BufTy).Contents (Elt Ideal)) (x3 : (⟨S1024x256, .f32⟩ : BufTy).Contents (Elt Ideal)) :
    Cert.ReferenceIdeal.Read.val_main_v28 (F := Ideal) x0 x1 x2 x3 = Cert.Spec.refOut x0 x1 x2 x3 := by
  funext i
  obtain ⟨b, s, n, rfl⟩ : ∃ b s n, i = ValueIdx.ix3 b s n := ⟨i 0, i 1, i 2, ValueIdx.eq_ix3 i⟩
  show _ = Cert.Spec.refEntry (Cert.Spec.xsq x0 x1 x2 b s) (Cert.Spec.cross x0 x1 x2 x3 b s) (Cert.Spec.csq x3) n
  unfold Cert.Spec.refEntry
  rw [val_main_v28_apply, Ideal.hostDivf_def, v24_at, v27_at]

end Cert.RefValue

end
-- ==== Proof.LibRealSplit.lean ====
/-
  Real numbers inside the extended reals: finite sums, a square root, and an inner product taken over leading parts and
  residuals.

  A finite sum of real numbers taken in the extended reals is a real number (nonnegative if the terms are); the root of
  a nonnegative real is the real root; and when two vectors `u`, `v` have real entries, writing each as a leading part
  (itself) plus a residual (itself minus itself, which is `0` exactly because the entry is finite: `⊤ − ⊤ = ⊥`) and
  summing leading·leading + leading·residual + residual·leading gives the plain inner product `∑ u·v`. The last is
  what remains, on the extended reals, of computing a product of two high-precision matrices as three products of their
  low-precision leading parts and residuals.
-/
import Idealize.ShloMosaic.PureOps.Ideal
import Idealize.ShloMosaic.PureOps.Ideal.Laws

noncomputable section

open scoped BigOperators

namespace Cert.LibRealSplit

open Idealize.ShloMosaic

/-! ## Finite sums of reals -/

/-- A finite sum of real numbers, taken in the extended reals, is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

/-- A finite sum of nonnegative real numbers is a nonnegative real number. -/
theorem nonneg_real_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    obtain ⟨r, hr0, hr⟩ := h a (Finset.mem_insert_self a s)
    obtain ⟨q, hq0, hq⟩ := ih fun i hi => h i (Finset.mem_insert_of_mem hi)
    exact ⟨r + q, add_nonneg hr0 hq0, by rw [Finset.sum_insert ha, hr, hq, EReal.coe_add]⟩

/-- The root of a nonnegative real is the real root. -/
theorem sqrt_coe {r : ℝ} (h : 0 ≤ r) : Ideal.sqrt (r : EReal) = ((Real.sqrt r : ℝ) : EReal) := by
  show (if r < 0 then ⊥ else (Real.sqrt r : EReal)) = _
  rw [if_neg (not_lt.2 h)]

/-! ## The residual products vanish -/

/-- For vectors with real entries the leading-part-and-residual inner product is the plain inner product. -/
theorem split_sum_eq {M : ℕ} (pq pk : Fin M → EReal) (hq : ∀ j, ∃ r : ℝ, pq j = (r : EReal))
    (hk : ∀ j, ∃ r : ℝ, pk j = (r : EReal)) :
    (∑ j, pq j * pk j) + (∑ j, pq j * (pk j - pk j)) + (∑ j, (pq j - pq j) * pk j) = ∑ j, pq j * pk j := by
  have h0 : ∀ z : EReal, (∃ r : ℝ, z = (r : EReal)) → z - z = 0 := by
    rintro z ⟨r, rfl⟩
    rw [← EReal.coe_sub, sub_self, EReal.coe_zero]
  have eq : ∀ j, pq j - pq j = 0 := fun j => h0 _ (hq j)
  have ek : ∀ j, pk j - pk j = 0 := fun j => h0 _ (hk j)
  simp only [eq, ek, mul_zero, zero_mul, Finset.sum_const_zero, add_zero]

end Cert.LibRealSplit

end
-- ==== Proof.LibSubDot.lean ====
/-
  The algebra of the two sides. Over the extended reals, with every operand finite, a difference of two dot products
  against the same vector is the dot product of the difference: the operands are real numbers, the coercion from the
  reals commutes with finite sums, products and differences, and in the reals multiplication distributes over
  subtraction under a finite sum.
-/
import Idealize.ShloMosaic.PureOps.Ideal
import Idealize.ShloMosaic.Lib.ValueIdx

noncomputable section

open scoped BigOperators

namespace Cert.Bridge

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite operands: the difference of two dot products against w, plus β, is the dot product of the difference, plus β. -/
theorem sub_dot_gen {n : Nat} (a b w : Fin n → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β := by
  choose ar har using ha
  choose br hbr using hb
  choose wr hwr using hw
  have h1 : ∑ k, a k * w k = ((∑ k, ar k * wr k : ℝ) : EReal) := by
    rw [coe_sum]
    exact Finset.sum_congr rfl fun k _ => by rw [har, hwr, EReal.coe_mul]
  have h2 : ∑ k, b k * w k = ((∑ k, br k * wr k : ℝ) : EReal) := by
    rw [coe_sum]
    exact Finset.sum_congr rfl fun k _ => by rw [hbr, hwr, EReal.coe_mul]
  have h3 : ∑ k, (a k - b k) * w k = ((∑ k, (ar k - br k) * wr k : ℝ) : EReal) := by
    rw [coe_sum]
    exact Finset.sum_congr rfl fun k _ => by rw [har, hbr, hwr, ← EReal.coe_sub, EReal.coe_mul]
  rw [h1, h2, h3, ← EReal.coe_sub, ← Finset.sum_sub_distrib]
  refine congrArg (fun t : ℝ => (t : EReal) + β) (Finset.sum_congr rfl fun k _ => ?_)
  rw [sub_mul]

/-- The instance at the 768 feature coordinates. -/
theorem sub_dot (a b w : Fin 768 → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β :=
  sub_dot_gen a b w β ha hb hw

end Cert.Bridge

end
-- ==== Proof.SoftmaxLaw.lean ====
/-
  The softmax of negated squared distances does not depend on the squared norm of the query.

  For one token, write `X = ‖f‖²`, `c j = ⟨f, C j⟩`, `q j = ‖C j‖²` (all real) and `p j = q j − 2·c j`. The negated
  squared distance to row `j` is `−(X − 2·c j + q j) = −X − p j`; over a nonempty finite index set its largest value is
  `−X − m` with `m` the least `p j`. Subtracting it leaves the exponent `m − p j`, in which `X` has cancelled, so with
  `S = Σⱼ exp (m − p j) > 0` the softmax entry is `exp (m − p n) / S`. The other form, `exp ((m − log S) − p n)`, is the
  same number because `exp (a − log S) = exp a / S` for `S > 0`.

  The second statement is distributivity: doubling the weights and the bias doubles every feature, hence every inner
  product of the features with a fixed vector.
-/
import proofs.«138584_g23519240912944_cont_8to1_1669_27_alg».proof.Proof.Spec
import proofs.«138584_g23519240912944_cont_8to1_1669_27_alg».proof.Proof.LibRealSplit
import proofs.«138584_g23519240912944_cont_8to1_1669_27_alg».proof.Proof.LibSubDot

noncomputable section

open scoped BigOperators

namespace Cert.SoftmaxLaw

open Idealize.ShloMosaic

/-- Twice a real, in the extended reals, is the real `2·r`. -/
private theorem two_mul_coe (r : ℝ) : (2 : EReal) * (r : EReal) = ((2 * r : ℝ) : EReal) := by
  rw [EReal.coe_mul]
  rfl

/-- The least of finitely many reals, attained at some index, is their minimum in the extended reals. -/
private theorem fold_min_coe {ι : Type} [Fintype ι] (p : ι → ℝ) (m : ℝ) (hle : ∀ j, m ≤ p j) (hat : ∃ j, p j = m) :
    Finset.univ.fold min ⊤ (fun j => ((p j : ℝ) : EReal)) = ((m : ℝ) : EReal) := by
  apply le_antisymm
  · rw [Finset.fold_min_le]
    obtain ⟨j, hj⟩ := hat
    exact Or.inr ⟨j, Finset.mem_univ j, by rw [hj]⟩
  · rw [Finset.le_fold_min]
    exact ⟨le_top, fun j _ => EReal.coe_le_coe_iff.2 (hle j)⟩

/-- The greatest of finitely many reals, attained at some index, is their maximum in the extended reals. -/
private theorem fold_max_coe {ι : Type} [Fintype ι] (p : ι → ℝ) (M : ℝ) (hle : ∀ j, p j ≤ M) (hat : ∃ j, p j = M) :
    Finset.univ.fold max ⊥ (fun j => ((p j : ℝ) : EReal)) = ((M : ℝ) : EReal) := by
  apply le_antisymm
  · rw [Finset.fold_max_le]
    exact ⟨bot_le, fun j _ => EReal.coe_le_coe_iff.2 (hle j)⟩
  · rw [Finset.le_fold_max]
    obtain ⟨j, hj⟩ := hat
    exact Or.inr ⟨j, Finset.mem_univ j, by rw [hj]⟩

/-- The sum of the shifted exponentials is a real number. -/
private theorem sum_exp_coe {ι : Type} [Fintype ι] (p : ι → ℝ) (m : ℝ) :
    ∑ j, ((Real.exp (m - p j) : ℝ) : EReal) = ((∑ j, Real.exp (m - p j) : ℝ) : EReal) := by
  rw [Cert.Bridge.coe_sum]

/-- The second form of the entry is `exp (m − p n) / S`. -/
private theorem ker_val {ι : Type} [Fintype ι] [Nonempty ι] (cross2 csq : ι → EReal) (p : ι → ℝ)
    (hd : ∀ j, csq j - cross2 j = ((p j : ℝ) : EReal))
    (m : ℝ) (hle : ∀ j, m ≤ p j) (hat : ∃ j, p j = m) (n : ι) :
    Cert.Spec.kerEntry cross2 csq n = ((Real.exp (m - p n) * (1 / ∑ j, Real.exp (m - p j)) : ℝ) : EReal) := by
  have hS : 0 < ∑ j, Real.exp (m - p j) := Finset.sum_pos (fun j _ => Real.exp_pos _) Finset.univ_nonempty
  have hfold : Finset.univ.fold min ⊤ (fun j => ((p j : ℝ) : EReal)) = ((m : ℝ) : EReal) := fold_min_coe p m hle hat
  have hterm : ∀ j, Ideal.exp (((m : ℝ) : EReal) - ((p j : ℝ) : EReal)) = ((Real.exp (m - p j) : ℝ) : EReal) :=
    fun j => by rw [← EReal.coe_sub, Ideal.exp_coe]
  have hlog : Ideal.log ((∑ j, Real.exp (m - p j) : ℝ) : EReal) = ((Real.log (∑ j, Real.exp (m - p j)) : ℝ) : EReal) := by
    rw [Ideal.log_coe, if_neg (not_le.2 hS)]
  have hreal : Real.exp (m - Real.log (∑ j, Real.exp (m - p j)) - p n)
      = Real.exp (m - p n) * (1 / ∑ j, Real.exp (m - p j)) := by
    have e : m - Real.log (∑ j, Real.exp (m - p j)) - p n = (m - p n) - Real.log (∑ j, Real.exp (m - p j)) := by ring
    rw [e, Real.exp_sub, Real.exp_log hS, div_eq_mul_one_div]
  unfold Cert.Spec.kerEntry
  simp only [hd]
  rw [hfold]
  simp only [hterm]
  rw [sum_exp_coe, hlog, ← EReal.coe_sub, ← EReal.coe_sub, Ideal.exp_coe, hreal]

/-- The first form of the entry is `exp (m − p n) / S` too: the squared norm of the query cancels. -/
private theorem ref_val {ι : Type} [Fintype ι] [Nonempty ι] (xsq : EReal) (cross csq : ι → EReal) (X : ℝ) (p : ι → ℝ)
    (hr : ∀ j, -(xsq - 2 * cross j + csq j) = ((-X - p j : ℝ) : EReal))
    (m : ℝ) (hle : ∀ j, m ≤ p j) (hat : ∃ j, p j = m) (n : ι) :
    Cert.Spec.refEntry xsq cross csq n = ((Real.exp (m - p n) * (1 / ∑ j, Real.exp (m - p j)) : ℝ) : EReal) := by
  have hS : 0 < ∑ j, Real.exp (m - p j) := Finset.sum_pos (fun j _ => Real.exp_pos _) Finset.univ_nonempty
  have hfold : Finset.univ.fold max ⊥ (fun j => ((-X - p j : ℝ) : EReal)) = ((-X - m : ℝ) : EReal) :=
    fold_max_coe (fun j => -X - p j) (-X - m) (fun j => by linarith [hle j])
      (by obtain ⟨j, hj⟩ := hat; exact ⟨j, by rw [hj]⟩)
  have hmax : max (⊥ : EReal) ((-X - m : ℝ) : EReal) = ((-X - m : ℝ) : EReal) := max_eq_right bot_le
  have hterm : ∀ j, Ideal.exp (((-X - p j : ℝ) : EReal) - ((-X - m : ℝ) : EReal)) = ((Real.exp (m - p j) : ℝ) : EReal) :=
    fun j => by
      have e : (-X - p j) - (-X - m) = m - p j := by ring
      rw [← EReal.coe_sub, Ideal.exp_coe, e]
  unfold Cert.Spec.refEntry
  simp only [hr]
  rw [hfold, hmax]
  simp only [hterm]
  rw [sum_exp_coe, Ideal.div_coe hS.ne', ← EReal.coe_mul]

/-- The two forms of one softmax entry agree when the squared norm, the inner products and the squared norms of the
    rows are real and the doubled inner products are twice the inner products. -/
theorem kerEntry_eq_refEntry {ι : Type} [Fintype ι] [Nonempty ι] (xsq : EReal) (cross cross2 csq : ι → EReal)
    (hx : ∃ r : ℝ, xsq = (r : EReal)) (hc : ∀ j, ∃ r : ℝ, cross j = (r : EReal)) (hq : ∀ j, ∃ r : ℝ, csq j = (r : EReal))
    (h2 : ∀ j, cross2 j = 2 * cross j) (n : ι) :
    Cert.Spec.kerEntry cross2 csq n = Cert.Spec.refEntry xsq cross csq n := by
  obtain ⟨X, hX⟩ := hx
  choose c hc using hc
  choose q hq using hq
  -- `p j = ‖C j‖² − 2·⟨f, C j⟩`, and an index at which it is least
  obtain ⟨p, hp⟩ : ∃ p : ι → ℝ, ∀ j, p j = q j - 2 * c j := ⟨fun j => q j - 2 * c j, fun _ => rfl⟩
  obtain ⟨j0, -, hj0⟩ := Finset.exists_min_image Finset.univ p Finset.univ_nonempty
  have hle : ∀ j, p j0 ≤ p j := fun j => hj0 j (Finset.mem_univ j)
  have hat : ∃ j, p j = p j0 := ⟨j0, rfl⟩
  have hd : ∀ j, csq j - cross2 j = ((p j : ℝ) : EReal) := fun j => by
    rw [h2, hc, hq, two_mul_coe, ← EReal.coe_sub, hp]
  have hr : ∀ j, -(xsq - 2 * cross j + csq j) = ((-X - p j : ℝ) : EReal) := fun j => by
    have e : -(X - 2 * c j + q j) = -X - p j := by rw [hp]; ring
    rw [hX, hc, hq, two_mul_coe, ← EReal.coe_sub, ← EReal.coe_add, ← EReal.coe_neg, e]
  rw [ker_val cross2 csq p hd (p j0) hle hat n, ref_val xsq cross csq X p hr (p j0) hle hat n]

/-- Doubling the weights and the bias doubles the inner product of the features with any real vector. -/
theorem double_cross {D K : ℕ} (x : Fin D → EReal) (W : Fin D → Fin K → EReal) (b C : Fin K → EReal)
    (hx : ∀ d, ∃ r : ℝ, x d = (r : EReal)) (hW : ∀ d k, ∃ r : ℝ, W d k = (r : EReal))
    (hb : ∀ k, ∃ r : ℝ, b k = (r : EReal)) (hC : ∀ k, ∃ r : ℝ, C k = (r : EReal)) :
    ∑ k, ((∑ d, x d * (2 * W d k)) + 2 * b k) * C k = 2 * ∑ k, ((∑ d, x d * W d k) + b k) * C k := by
  choose xr hxr using hx
  choose Wr hWr using hW
  choose br hbr using hb
  choose Cr hCr using hC
  have hin2 : ∀ k, ∑ d, x d * (2 * W d k) = ((∑ d, xr d * (2 * Wr d k) : ℝ) : EReal) := fun k => by
    rw [Cert.Bridge.coe_sum]
    exact Finset.sum_congr rfl fun d _ => by rw [hxr, hWr, two_mul_coe, ← EReal.coe_mul]
  have hin : ∀ k, ∑ d, x d * W d k = ((∑ d, xr d * Wr d k : ℝ) : EReal) := fun k => by
    rw [Cert.Bridge.coe_sum]
    exact Finset.sum_congr rfl fun d _ => by rw [hxr, hWr, EReal.coe_mul]
  have hl : ∑ k, ((∑ d, x d * (2 * W d k)) + 2 * b k) * C k
      = ((∑ k, ((∑ d, xr d * (2 * Wr d k)) + 2 * br k) * Cr k : ℝ) : EReal) := by
    rw [Cert.Bridge.coe_sum]
    exact Finset.sum_congr rfl fun k _ => by
      rw [hin2, hbr, hCr, two_mul_coe, ← EReal.coe_add, EReal.coe_mul]
  have hrt : ∑ k, ((∑ d, x d * W d k) + b k) * C k
      = ((∑ k, ((∑ d, xr d * Wr d k) + br k) * Cr k : ℝ) : EReal) := by
    rw [Cert.Bridge.coe_sum]
    exact Finset.sum_congr rfl fun k _ => by
      rw [hin, hbr, hCr, ← EReal.coe_add, EReal.coe_mul]
  have hreal : ∑ k, ((∑ d, xr d * (2 * Wr d k)) + 2 * br k) * Cr k
      = 2 * ∑ k, ((∑ d, xr d * Wr d k) + br k) * Cr k := by
    rw [Finset.mul_sum]
    refine Finset.sum_congr rfl fun k _ => ?_
    have e : ∑ d, xr d * (2 * Wr d k) = 2 * ∑ d, xr d * Wr d k := by
      rw [Finset.mul_sum]
      exact Finset.sum_congr rfl fun d _ => by ring
    rw [e]
    ring
  rw [hl, hrt, two_mul_coe, hreal]

end Cert.SoftmaxLaw

end
-- ==== Proof.Bridge.lean ====
/-
  The two result arrays agree on real inputs. With every entry of the four argument arrays a real number, each feature
  `Σ_d X·W + B` is a real (a finite sum of products of reals, plus a real), and so are a token's squared norm, its inner
  products with the codebook rows, and the rows' squared norms. The doubled inner products are twice the inner products
  (doubling the weights and the bias doubles the features). These are the hypotheses under which the two forms of one
  softmax entry coincide, so the arrays coincide entry by entry.
-/
import proofs.«138584_g23519240912944_cont_8to1_1669_27_alg».proof.Proof.Spec
import proofs.«138584_g23519240912944_cont_8to1_1669_27_alg».proof.Proof.SoftmaxLaw
import proofs.«138584_g23519240912944_cont_8to1_1669_27_alg».proof.Proof.LibRealSplit
import proofs.«138584_g23519240912944_cont_8to1_1669_27_alg».proof.Proof.LibSubDot

noncomputable section

open scoped BigOperators

namespace Cert.Bridge2

open Idealize.ShloMosaic Idealize.ShloMosaic.ValueIdx
open Cert.Spec

/-- A product of two reals, taken in the extended reals, is a real. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨q, rfl⟩ := hb
  exact ⟨r * q, (EReal.coe_mul r q).symm⟩

/-- A sum of two reals, taken in the extended reals, is a real. -/
theorem real_add {a b : EReal} (ha : ∃ r : ℝ, a = (r : EReal)) (hb : ∃ r : ℝ, b = (r : EReal)) :
    ∃ r : ℝ, a + b = (r : EReal) := by
  obtain ⟨r, rfl⟩ := ha
  obtain ⟨q, rfl⟩ := hb
  exact ⟨r + q, (EReal.coe_add r q).symm⟩

variable {X : SX.Idx → EReal} {W : SW.Idx → EReal} {B : SB.Idx → EReal} {C : SC.Idx → EReal}

/-- Every feature of every token is a real. -/
theorem feat_real (hX : ∀ i, ∃ r : ℝ, X i = (r : EReal)) (hW : ∀ i, ∃ r : ℝ, W i = (r : EReal))
    (hB : ∀ i, ∃ r : ℝ, B i = (r : EReal)) (b : Fin 16) (s : Fin 1024) (k : Fin 256) :
    ∃ r : ℝ, feat X W B b s k = (r : EReal) := by
  unfold feat
  exact real_add (Cert.LibRealSplit.real_sum _ _ fun d _ => real_mul (hX _) (hW _)) (hB _)

/-- A token's squared norm `‖f‖²` is a real. -/
theorem xsq_real (hX : ∀ i, ∃ r : ℝ, X i = (r : EReal)) (hW : ∀ i, ∃ r : ℝ, W i = (r : EReal))
    (hB : ∀ i, ∃ r : ℝ, B i = (r : EReal)) (b : Fin 16) (s : Fin 1024) :
    ∃ r : ℝ, xsq X W B b s = (r : EReal) := by
  unfold xsq
  exact Cert.LibRealSplit.real_sum _ _ fun k _ => real_mul (feat_real hX hW hB b s k) (feat_real hX hW hB b s k)

/-- A token's inner product `⟨f, C n⟩` with a codebook row is a real. -/
theorem cross_real (hX : ∀ i, ∃ r : ℝ, X i = (r : EReal)) (hW : ∀ i, ∃ r : ℝ, W i = (r : EReal))
    (hB : ∀ i, ∃ r : ℝ, B i = (r : EReal)) (hC : ∀ i, ∃ r : ℝ, C i = (r : EReal)) (b : Fin 16) (s : Fin 1024)
    (n : Fin 1024) : ∃ r : ℝ, cross X W B C b s n = (r : EReal) := by
  unfold cross
  exact Cert.LibRealSplit.real_sum _ _ fun k _ => real_mul (feat_real hX hW hB b s k) (hC _)

/-- A codebook row's squared norm `‖C n‖²` is a real. -/
theorem csq_real (hC : ∀ i, ∃ r : ℝ, C i = (r : EReal)) (n : Fin 1024) : ∃ r : ℝ, csq C n = (r : EReal) := by
  unfold csq
  exact Cert.LibRealSplit.real_sum _ _ fun k _ => real_mul (hC _) (hC _)

/-- The inner products formed from the doubled weights and bias are twice the inner products. -/
theorem cross2_eq (hX : ∀ i, ∃ r : ℝ, X i = (r : EReal)) (hW : ∀ i, ∃ r : ℝ, W i = (r : EReal))
    (hB : ∀ i, ∃ r : ℝ, B i = (r : EReal)) (hC : ∀ i, ∃ r : ℝ, C i = (r : EReal)) (b : Fin 16) (s : Fin 1024)
    (n : Fin 1024) : cross2 X W B C b s n = 2 * cross X W B C b s n := by
  unfold cross2 cross feat2 feat
  exact Cert.SoftmaxLaw.double_cross (fun d => X (ix3 b s d)) (fun d k => W (ix2 d k)) (fun k => B (ix1 k))
    (fun k => C (ix2 n k)) (fun d => hX _) (fun d k => hW _) (fun k => hB _) (fun k => hC _)

/-- On real inputs the two result arrays are the same array. -/
theorem kerOut_eq_refOut (X : Cert.Spec.SX.Idx → EReal) (W : Cert.Spec.SW.Idx → EReal) (B : Cert.Spec.SB.Idx → EReal) (C : Cert.Spec.SC.Idx → EReal)
    (hX : ∀ i, ∃ r : ℝ, X i = (r : EReal)) (hW : ∀ i, ∃ r : ℝ, W i = (r : EReal)) (hB : ∀ i, ∃ r : ℝ, B i = (r : EReal)) (hC : ∀ i, ∃ r : ℝ, C i = (r : EReal)) :
    Cert.Spec.kerOut X W B C = Cert.Spec.refOut X W B C := by
  funext i
  unfold Cert.Spec.kerOut Cert.Spec.refOut
  exact Cert.SoftmaxLaw.kerEntry_eq_refEntry (xsq X W B (i 0) (i 1)) (cross X W B C (i 0) (i 1))
    (cross2 X W B C (i 0) (i 1)) (csq C) (xsq_real hX hW hB (i 0) (i 1)) (cross_real hX hW hB hC (i 0) (i 1))
    (csq_real hC) (cross2_eq hX hW hB hC (i 0) (i 1)) (i 2)

end Cert.Bridge2

end
-- ==== Proof.Finite.lean ====
/-
  Finite inputs are real. The generated precondition compares, for each of the four argument arrays, the absolute
  value of every entry with +∞ (the f32 pattern 0x7F800000), reduces the one-bit answers by `and` over all axes, and
  `and`s the four scalars. When the result is 1 every comparison was 1, so every entry x has max x (-x) < ⊤ in the
  extended reals, which excludes ⊥ and ⊤: the entry is a real number.
-/
import proofs.«138584_g23519240912944_cont_8to1_1669_27_alg».proof.Pre_finite_inputs
import Idealize.ShloMosaic.PureOps.Ideal
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx
open Cert.Pre_finite_inputs (S_)

variable [Cert.Pre_finite_inputs.Facts]

/-- The scalar shape has one index. -/
instance : Subsingleton S_.Idx := ⟨fun a b => funext fun d => d.elim0⟩

/-- The f32 pattern `0x7F800000` denotes +∞. -/
theorem ofBits_inf : Ideal.ofBits .f32 0x7F800000#32 = (⊤ : EReal) := by simp [Ideal.ofBits, Ideal.ieee]

/-- An extended real whose absolute value `max x (-x)` lies strictly below ⊤ is a real number: at ⊥ the negation is ⊤,
    at ⊤ the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- One array: if the all-axes `and` of the comparisons |x i| < +∞ is 1, every entry of `x` is real. -/
theorem reals_of_all {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant (F := Ideal) S_ .f32 0x7F800000#32))) init hr hu j = 1#1)
    (i : s.Idx) : ∃ r : ℝ, x i = (r : EReal) := by
  have hi := Host.reduce_andi_all _ init hr hu j e i
  rw [cmpf_apply, broadcastInDim_scalar_apply, constant_apply, ofBits_inf] at hi
  have hc : Ideal.cmp .olt (max (x i) (-(x i))) ⊤ = 1#1 := hi
  refine real_of_abs_lt_top (x i) ?_
  by_cases hlt : max (x i) (-(x i)) < ⊤
  · exact hlt
  · exfalso
    have h0 : Ideal.cmp .olt (max (x i) (-(x i))) ⊤ = 0#1 := by
      show BitVec.ofBool (decide (max (x i) (-(x i)) < ⊤)) = 0#1
      rw [decide_eq_false hlt]; rfl
    rw [h0] at hc
    exact absurd hc (by decide)

/-- The precondition's value is the `and` of four all-axes reductions, one per argument array; being 1, each of the
    four is 1, and each gives that every entry of its array is a real number. -/
theorem reals_of_pre (x0 : FVec Ideal Cert.Pre_finite_inputs.S16x1024x256 .f32) (x1 : FVec Ideal Cert.Pre_finite_inputs.S256x256 .f32)
    (x2 : FVec Ideal Cert.Pre_finite_inputs.S256 .f32) (x3 : FVec Ideal Cert.Pre_finite_inputs.S1024x256 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨reals_of_all x0 _ _ _ _ _ h0', reals_of_all x1 _ _ _ _ _ h1, reals_of_all x2 _ _ _ _ _ h2,
    reals_of_all x3 _ _ _ _ _ h3⟩

end Cert.Finite

end
-- ==== Proof.lean ====
/-
  The certificate of the fused distance-softmax kernel against its reference, over the extended reals.

  Both programs compute, for each of 16·1024 tokens with features `f = x·W + β`, the softmax over the 1024 codebook
  rows of the negated squared distances `−(‖f‖² − 2⟨f, C n⟩ + ‖C n‖²)`. The reference forms exactly that. The kernel
  drops `‖f‖²`, which does not depend on `n` and cancels in a softmax, doubles `W` and `β` instead of the inner products,
  and returns `exp ((m − log Σ exp (m − p)) − p n)` with `p = ‖C‖² − ⟨2f, C⟩` and `m = min p`. With every input finite all
  the intermediate values are real numbers and the two forms agree (`Cert.SoftmaxLaw`, `Cert.Bridge2`).

  The kernel side: the body's stores as functions of its loads (`Pieces`), those functions at an index (`Payload`,
  `PayloadBlock`), the input blocks as entries of the arguments (`Blocks`), the carried row of norms and the output block
  after every grid point (`Carried`), the blocks tiling the result and the final recast (`Final`, `KernelRun`). The
  reference side: its stages read at an index (`RefValue`). Finiteness of the inputs from the precondition (`Finite`).
-/
import proofs.«138584_g23519240912944_cont_8to1_1669_27_alg».proof.Defs
import proofs.«138584_g23519240912944_cont_8to1_1669_27_alg».proof.Proof.Gen.Kernel
import proofs.«138584_g23519240912944_cont_8to1_1669_27_alg».proof.Proof.Gen.Kernel.Skeleton
import proofs.«138584_g23519240912944_cont_8to1_1669_27_alg».proof.Proof.Gen.Kernel.Launch
import proofs.«138584_g23519240912944_cont_8to1_1669_27_alg».proof.Proof.Gen.Kernel.Points
import proofs.«138584_g23519240912944_cont_8to1_1669_27_alg».proof.Proof.Gen.Kernel.Frame
import proofs.«138584_g23519240912944_cont_8to1_1669_27_alg».proof.Proof.Gen.KernelIdeal
import proofs.«138584_g23519240912944_cont_8to1_1669_27_alg».proof.Proof.Gen.KernelIdeal.Skeleton
import proofs.«138584_g23519240912944_cont_8to1_1669_27_alg».proof.Proof.Gen.KernelIdeal.Launch
import proofs.«138584_g23519240912944_cont_8to1_1669_27_alg».proof.Proof.Gen.KernelIdeal.Points
import proofs.«138584_g23519240912944_cont_8to1_1669_27_alg».proof.Proof.Gen.KernelIdeal.Frame
import proofs.«138584_g23519240912944_cont_8to1_1669_27_alg».proof.Proof.Gen.ReferenceIdeal
import proofs.«138584_g23519240912944_cont_8to1_1669_27_alg».proof.Proof.Gen.Pre_finite_inputs
import proofs.«138584_g23519240912944_cont_8to1_1669_27_alg».proof.Proof.Gen.ReferenceIdeal.Run
import proofs.«138584_g23519240912944_cont_8to1_1669_27_alg».proof.Proof.Gen.ReferenceIdeal.Read
import proofs.«138584_g23519240912944_cont_8to1_1669_27_alg».proof.Proof.Final
import proofs.«138584_g23519240912944_cont_8to1_1669_27_alg».proof.Proof.KernelRun
import proofs.«138584_g23519240912944_cont_8to1_1669_27_alg».proof.Proof.RefValue
import proofs.«138584_g23519240912944_cont_8to1_1669_27_alg».proof.Proof.Bridge
import proofs.«138584_g23519240912944_cont_8to1_1669_27_alg».proof.Proof.Finite
import Idealize.ShloMosaic.Adequacy
import Idealize.ShloMosaic.Init

noncomputable section

namespace Cert.Proof

open Idealize.ShloMosaic Idealize.ShloMosaic.TcCoe Idealize.SL.Sem

/-- The kernel program at the extended reals runs, ends with its result at the second form of the softmax of its
    arguments, and leaves the arguments as they were. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  open Cert.KernelIdeal Cert.KernelIdeal.Gen in
  (θ_run defs _ _).mono (fun _ h c =>
    ⟨((h c).2 main_v0 (Pipeline.mem_restRefs_of main_v0 (by decide) (by decide))).trans
        (Cert.KernelIdeal.KernelRun.tail_value m c (Cert.KernelIdeal.Final.final m c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c)))⟩)
    (run_main m ρ)

/-- The reference's result is the kernel's: with finite inputs the two forms of the softmax agree. -/
theorem algebraic [hK : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW, hB, hC⟩ := Cert.Finite.reals_of_pre _ _ _ _ (hpre c)
  rw [Cert.ReferenceIdeal.Read.val_main_v28_eq, Cert.RefValue.ref_is_refOut, (hagree c).1, (hagree c).2.1, (hagree c).2.2.1, (hagree c).2.2.2]
  exact (Cert.Bridge2.kerOut_eq_refOut _ _ _ _ hX hW hB hC).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
